-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x1 : Shape := ⟨3, ![4, 50000, 1]⟩
abbrev S1200000 : Shape := ⟨1, ![1200000]⟩
abbrev S4x50000x64 : Shape := ⟨3, ![4, 50000, 64]⟩
abbrev S1x64 : Shape := ⟨2, ![1, 64]⟩
abbrev S64 : Shape := ⟨1, ![64]⟩
abbrev S64x64 : Shape := ⟨2, ![64, 64]⟩
abbrev S192x64 : Shape := ⟨2, ![192, 64]⟩
abbrev S192 : Shape := ⟨1, ![192]⟩
abbrev S64x5 : Shape := ⟨2, ![64, 5]⟩
abbrev S5 : Shape := ⟨1, ![5]⟩
abbrev S2x1200000 : Shape := ⟨2, ![2, 1200000]⟩
abbrev S_ : Shape := ⟨0, ![]⟩

class Facts : Prop where
  bcast_S_S4x50000x1 : S_.BroadcastsInDim S4x50000x1 (![] : Fin 0 → Fin S4x50000x1.rank)
  reducesTo_S4x50000x1_S_d0_1_2 : S4x50000x1.ReducesTo [0, 1, 2] S_
  h_S_ : 0 < S_.numel
  bcast_S_S1200000 : S_.BroadcastsInDim S1200000 (![] : Fin 0 → Fin S1200000.rank)
  reducesTo_S1200000_S_d0 : S1200000.ReducesTo [0] S_
  bcast_S_S4x50000x64 : S_.BroadcastsInDim S4x50000x64 (![] : Fin 0 → Fin S4x50000x64.rank)
  reducesTo_S4x50000x64_S_d0_1_2 : S4x50000x64.ReducesTo [0, 1, 2] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_arg11 : FVec F S64x5 .f32) (main_arg12 : FVec F S5 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S64x5 .f32 := Host.absf main_arg11
  let main_cst_20 : FVec F S_ .f32 := constant S_ .f32 0x7F800000#32
  let main_v55 : FVec F S64x5 .f32 := broadcastInDim S64x5 ![] bcast_S_S64x5 main_cst_20
  let main_v56 : IVec S64x5 1 := cmpf .olt main_v54 main_v55
  let main_c_21 : IVec S_ 1 := constantI S_ 1 1#1
  let main_v57 : IVec S_ 1 := (fun x v => Host.reduce IntOp.andi x v reducesTo_S64x5_S_d0_1 h_S_) main_v56 main_c_21
  let main_v58 : IVec S_ 1 := andi main_v53 main_v57
  let main_v59 : FVec F S5 .f32 := Host.absf main_arg12
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  main_v63

def fn_part2 {F : FTy → Type} [FloatOps F] (main_arg7 : FVec F S192x64 .f32) (main_arg8 : FVec F S192x64 .f32) (main_arg9 : FVec F S192 .f32) (main_arg10 : FVec F S192 .f32) (main_arg11 : FVec F S64x5 .f32) (main_arg12 : FVec F S5 .f32) (main_v33 : IVec S_ 1) : IVec S_ 1 :=
  let main_v34 : FVec F S192x64 .f32 := Host.absf main_arg7
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192x64 .f32 := Host.absf main_arg8
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S192 .f32 := Host.absf main_arg10
  let main_cst_18 : FVec F S_ .f32 := constant S_ .f32 0x7F800000#32
  let main_v50 : FVec F S192 .f32 := broadcastInDim S192 ![] bcast_S_S192 main_cst_18
  fn_part3 (F := F) main_arg11 main_arg12 main_v48 main_v49 main_v50

def fn_part1 {F : FTy → Type} [FloatOps F] (main_arg4 : FVec F S64 .f32) (main_arg5 : FVec F S64x64 .f32) (main_arg6 : FVec F S64 .f32) (main_arg7 : FVec F S192x64 .f32) (main_arg8 : FVec F S192x64 .f32) (main_arg9 : FVec F S192 .f32) (main_arg10 : FVec F S192 .f32) (main_arg11 : FVec F S64x5 .f32) (main_arg12 : FVec F S5 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x50000x1 .f32) (main_arg1 : FVec F S1200000 .f32) (main_arg2 : FVec F S4x50000x64 .f32) (main_arg3 : FVec F S1x64 .f32) (main_arg4 : FVec F S64 .f32) (main_arg5 : FVec F S64x64 .f32) (main_arg6 : FVec F S64 .f32) (main_arg7 : FVec F S192x64 .f32) (main_arg8 : FVec F S192x64 .f32) (main_arg9 : FVec F S192 .f32) (main_arg10 : FVec F S192 .f32) (main_arg11 : FVec F S64x5 .f32) (main_arg12 : FVec F S5 .f32) (main_arg13 : IVec S2x1200000 32) : IVec S_ 1 :=
  let main_v0 : FVec F S4x50000x1 .f32 := Host.absf main_arg0
  let main_cst : FVec F S_ .f32 := constant S_ .f32 0x7F800000#32
  let main_v1 : FVec F S4x50000x1 .f32 := broadcastInDim S4x50000x1 ![] bcast_S_S4x50000x1 main_cst
  let main_v2 : IVec S4x50000x1 1 := cmpf .olt main_v0 main_v1
  let main_c : IVec S_ 1 := constantI S_ 1 1#1
  let main_v3 : IVec S_ 1 := (fun x v => Host.reduce IntOp.andi x v reducesTo_S4x50000x1_S_d0_1_2 h_S_) main_v2 main_c
  let main_v4 : FVec F S1200000 .f32 := Host.absf main_arg1
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S4x50000x64 .f32 := Host.absf main_arg2
  let main_cst_2 : FVec F S_ .f32 := constant S_ .f32 0x7F800000#32
  let main_v10 : FVec F S4x50000x64 .f32 := broadcastInDim S4x50000x64 ![] bcast_S_S4x50000x64 main_cst_2
  let main_v11 : IVec S4x50000x64 1 := cmpf .olt main_v9 main_v10
  let main_c_3 : IVec S_ 1 := constantI S_ 1 1#1
  let main_v12 : IVec S_ 1 := (fun x v => Host.reduce IntOp.andi x v reducesTo_S4x50000x64_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_arg9 main_arg10 main_arg11 main_arg12 main_v13 main_v16
-- ==== Kernel.lean ====
abbrev S4x50000x1 : Shape := ⟨3, ![4, 50000, 1]⟩
abbrev S1200000 : Shape := ⟨1, ![1200000]⟩
abbrev S4x50000x64 : Shape := ⟨3, ![4, 50000, 64]⟩
abbrev S1x64 : Shape := ⟨2, ![1, 64]⟩
abbrev S64 : Shape := ⟨1, ![64]⟩
abbrev S64x64 : Shape := ⟨2, ![64, 64]⟩
abbrev S192x64 : Shape := ⟨2, ![192, 64]⟩
abbrev S192 : Shape := ⟨1, ![192]⟩
abbrev S64x5 : Shape := ⟨2, ![64, 5]⟩
abbrev S5 : Shape := ⟨1, ![5]⟩
abbrev S2x1200000 : Shape := ⟨2, ![2, 1200000]⟩
abbrev S1x1200000 : Shape := ⟨2, ![1, 1200000]⟩
abbrev S_ : Shape := ⟨0, ![]⟩
abbrev S200000 : Shape := ⟨1, ![200000]⟩
abbrev S1200000x1 : Shape := ⟨2, ![1200000, 1]⟩
abbrev S200000x1 : Shape := ⟨2, ![200000, 1]⟩
abbrev S200000x64 : Shape := ⟨2, ![200000, 64]⟩
abbrev S5000x1 : Shape := ⟨2, ![5000, 1]⟩
abbrev S5000x64 : Shape := ⟨2, ![5000, 64]⟩
abbrev S1200000x64 : Shape := ⟨2, ![1200000, 64]⟩
abbrev S64x192 : Shape := ⟨2, ![64, 192]⟩
abbrev S1x192 : Shape := ⟨2, ![1, 192]⟩
abbrev S1x5 : Shape := ⟨2, ![1, 5]⟩
abbrev S200000x5 : Shape := ⟨2, ![200000, 5]⟩
abbrev S2000x64 : Shape := ⟨2, ![2000, 64]⟩
abbrev S2000x5 : Shape := ⟨2, ![2000, 5]⟩
abbrev S2000x192 : Shape := ⟨2, ![2000, 192]⟩
abbrev S4x50000x5 : Shape := ⟨3, ![4, 50000, 5]⟩

abbrev nBuf : Space → Nat
  | .hbm => 118
  | .vmem => 42
  | .smem => 0
  | _ => 0

abbrev bufTy : (tb : Table) → Fin (tcTables nBuf tb) → BufTy
  | .hbm, ⟨0, _⟩ => ⟨S4x50000x1, .f32⟩
  | .hbm, ⟨1, _⟩ => ⟨S1200000, .f32⟩
  | .hbm, ⟨2, _⟩ => ⟨S4x50000x64, .f32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S64x5, .f32⟩
  | .hbm, ⟨12, _⟩ => ⟨S5, .f32⟩
  | .hbm, ⟨13, _⟩ => ⟨S2x1200000, .i32⟩
  | .hbm, ⟨14, _⟩ => ⟨S1x1200000, .i32⟩
  | .hbm, ⟨15, _⟩ => ⟨S1200000, .i32⟩
  | .hbm, ⟨16, _⟩ => ⟨S1x1200000, .i32⟩
  | .hbm, ⟨17, _⟩ => ⟨S1200000, .i32⟩
  | .hbm, ⟨18, _⟩ => ⟨S_, .f32⟩
  | .hbm, ⟨19, _⟩ => ⟨S200000, .f32⟩
  | .hbm, ⟨20, _⟩ => ⟨S1200000x1, .i32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S200000, .f32⟩
  | .hbm, ⟨27, _⟩ => ⟨S200000x1, .f32⟩
  | .hbm, ⟨28, _⟩ => ⟨S200000x64, .f32⟩
  | .hbm, ⟨29, _⟩ => ⟨S_, .i32⟩
  | .hbm, ⟨30, _⟩ => ⟨S1200000, .i32⟩
  | .hbm, ⟨31, _⟩ => ⟨S1200000, .i1⟩
  | .hbm, ⟨32, _⟩ => ⟨S_, .i32⟩
  | .hbm, ⟨33, _⟩ => ⟨S1200000, .i32⟩
  | .hbm, ⟨34, _⟩ => ⟨S1200000, .i32⟩
  | .hbm, ⟨35, _⟩ => ⟨S1200000, .i32⟩
  | .hbm, ⟨36, _⟩ => ⟨S1200000x1, .i32⟩
  | .hbm, ⟨37, _⟩ => ⟨S1200000, .f32⟩
  | .hbm, ⟨38, _⟩ => ⟨S1200000, .f32⟩
  | .hbm, ⟨39, _⟩ => ⟨S_, .i32⟩
  | .hbm, ⟨40, _⟩ => ⟨S1200000, .i32⟩
  | .hbm, ⟨41, _⟩ => ⟨S1200000, .i1⟩
  | .hbm, ⟨42, _⟩ => ⟨S_, .i32⟩
  | .hbm, ⟨43, _⟩ => ⟨S1200000, .i32⟩
  | .hbm, ⟨44, _⟩ => ⟨S1200000, .i32⟩
  | .hbm, ⟨45, _⟩ => ⟨S1200000, .i32⟩
  | .hbm, ⟨46, _⟩ => ⟨S1200000x1, .i32⟩
  | .hbm, ⟨47, _⟩ => ⟨S1200000, .f32⟩
  | .hbm, ⟨48, _⟩ => ⟨S1200000, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S1200000x1, .f32⟩
  | .hbm, ⟨59, _⟩ => ⟨S1200000x64, .f32⟩
  | .hbm, ⟨60, _⟩ => ⟨S1200000x64, .f32⟩
  | .hbm, ⟨61, _⟩ => ⟨S_, .f32⟩
  | .hbm, ⟨62, _⟩ => ⟨S200000x64, .f32⟩
  | .hbm, ⟨63, _⟩ => ⟨S1200000x1, .i32⟩
  | .hbm, ⟨64, _⟩ => ⟨S200000x64, .f32⟩
  | .hbm, ⟨65, _⟩ => ⟨S1x64, .f32⟩
  | .hbm, ⟨66, _⟩ => ⟨S200000x1, .f32⟩
  | .hbm, ⟨67, _⟩ => ⟨S200000x64, .f32⟩
  | .hbm, ⟨68, _⟩ => ⟨S200000x64, .f32⟩
  | .hbm, ⟨69, _⟩ => ⟨S_, .i32⟩
  | .hbm, ⟨70, _⟩ => ⟨S1200000, .i32⟩
  | .hbm, ⟨71, _⟩ => ⟨S1200000, .i1⟩
  | .hbm, ⟨72, _⟩ => ⟨S_, .i32⟩
  | .hbm, ⟨73, _⟩ => ⟨S1200000, .i32⟩
  | .hbm, ⟨74, _⟩ => ⟨S1200000, .i32⟩
  | .hbm, ⟨75, _⟩ => ⟨S1200000, .i32⟩
  | .hbm, ⟨76, _⟩ => ⟨S1200000x1, .i32⟩
  | .hbm, ⟨77, _⟩ => ⟨S1200000, .f32⟩
  | .hbm, ⟨78, _⟩ => ⟨S1200000, .f32⟩
  | .hbm, ⟨79, _⟩ => ⟨S_, .i32⟩
  | .hbm, ⟨80, _⟩ => ⟨S1200000, .i32⟩
  | .hbm, ⟨81, _⟩ => ⟨S1200000, .i1⟩
  | .hbm, ⟨82, _⟩ => ⟨S_, .i32⟩
  | .hbm, ⟨83, _⟩ => ⟨S1200000, .i32⟩
  | .hbm, ⟨84, _⟩ => ⟨S1200000, .i32⟩
  | .hbm, ⟨85, _⟩ => ⟨S1200000, .i32⟩
  | .hbm, ⟨86, _⟩ => ⟨S1200000x1, .i32⟩
  | .hbm, ⟨87, _⟩ => ⟨S1200000, .f32⟩
  | .hbm, ⟨88, _⟩ => ⟨S1200000, .f32⟩
  | .hbm, ⟨89, _⟩ => ⟨S_, .i32⟩
  | .hbm, ⟨90, _⟩ => ⟨S1200000, .i32⟩
  | .hbm, ⟨91, _⟩ => ⟨S1200000, .i1⟩
  | .hbm, ⟨92, _⟩ => ⟨S_, .i32⟩
  | .hbm, ⟨93, _⟩ => ⟨S1200000, .i32⟩
  | .hbm, ⟨94, _⟩ => ⟨S1200000, .i32⟩
  | .hbm, ⟨95, _⟩ => ⟨S1200000, .i32⟩
  | .hbm, ⟨96, _⟩ => ⟨S1200000x1, .i32⟩
  | .hbm, ⟨97, _⟩ => ⟨S1200000x64, .f32⟩
  | .hbm, ⟨98, _⟩ => ⟨S1200000x1, .f32⟩
  | .hbm, ⟨99, _⟩ => ⟨S1200000x64, .f32⟩
  | .hbm, ⟨100, _⟩ => ⟨S1200000x64, .f32⟩
  | .hbm, ⟨101, _⟩ => ⟨S_, .f32⟩
  | .hbm, ⟨102, _⟩ => ⟨S200000x64, .f32⟩
  | .hbm, ⟨103, _⟩ => ⟨S1200000x1, .i32⟩
  | .hbm, ⟨104, _⟩ => ⟨S200000x64, .f32⟩
  | .hbm, ⟨105, _⟩ => ⟨S1x64, .f32⟩
  | .hbm, ⟨106, _⟩ => ⟨S200000x1, .f32⟩
  | .hbm, ⟨107, _⟩ => ⟨S200000x64, .f32⟩
  | .hbm, ⟨108, _⟩ => ⟨S200000x64, .f32⟩
  | .hbm, ⟨109, _⟩ => ⟨S64x192, .f32⟩
  | .hbm, ⟨110, _⟩ => ⟨S64x192, .f32⟩
  | .hbm, ⟨111, _⟩ => ⟨S1x192, .f32⟩
  | .hbm, ⟨112, _⟩ => ⟨S1x192, .f32⟩
  | .hbm, ⟨113, _⟩ => ⟨S1x5, .f32⟩
  | .hbm, ⟨114, _⟩ => ⟨S200000x5, .f32⟩
  | .hbm, ⟨115, _⟩ => ⟨S200000x64, .f32⟩
  | .hbm, ⟨116, _⟩ => ⟨S4x50000x5, .f32⟩
  | .hbm, ⟨117, _⟩ => ⟨S4x50000x64, .f32⟩
  | .local _ .vmem, ⟨0, _⟩ => ⟨S5000x1, .f32⟩
  | .local _ .vmem, ⟨1, _⟩ => ⟨S5000x1, .f32⟩
  | .local _ .vmem, ⟨2, _⟩ => ⟨S1x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S64x192, .f32⟩
  | .local _ .vmem, ⟨33, _⟩ => ⟨S64x192, .f32⟩
  | .local _ .vmem, ⟨34, _⟩ => ⟨S1x192, .f32⟩
  | .local _ .vmem, ⟨35, _⟩ => ⟨S1x192, .f32⟩
  | .local _ .vmem, ⟨36, _⟩ => ⟨S64x5, .f32⟩
  | .local _ .vmem, ⟨37, _⟩ => ⟨S1x5, .f32⟩
  | .local _ .vmem, ⟨38, _⟩ => ⟨S2000x5, .f32⟩
  | .local _ .vmem, ⟨39, _⟩ => ⟨S2000x5, .f32⟩
  | .local _ .vmem, ⟨40, _⟩ => ⟨S2000x64, .f32⟩
  | .local _ .vmem, ⟨41, _⟩ => ⟨S2000x64, .f32⟩
  | _, _ => ⟨S4x50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_11 : Ref sig .tc := ⟨.hbm, 89, rfl⟩
abbrev main_v62 : Ref sig .tc := ⟨.hbm, 90, rfl⟩
abbrev main_v63 : Ref sig .tc := ⟨.hbm, 91, rfl⟩
abbrev main_c_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84_0 : Ref sig .tc := ⟨.hbm, 114, rfl⟩
abbrev main_v84_1 : Ref sig .tc := ⟨.hbm, 115, rfl⟩
abbrev main_v85 : Ref sig .tc := ⟨.hbm, 116, rfl⟩
abbrev main_v86 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc4_stg8_0 : Ref sig .tc := ⟨.vmem, 38, rfl⟩
abbrev cc4_stg8_1 : Ref sig .tc := ⟨.vmem, 39, rfl⟩
abbrev cc4_stg9_0 : Ref sig .tc := ⟨.vmem, 40, rfl⟩
abbrev cc4_stg9_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem7_0 : DmaSem sig := 37
abbrev cc4_sem8_0 : DmaSem sig := 38
abbrev cc4_sem8_1 : DmaSem sig := 39
abbrev cc4_sem9_0 : DmaSem sig := 40
abbrev cc4_sem9_1 : DmaSem sig := 41

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x192 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x192 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x5 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x5 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x5 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S2000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S200000 : S_.BroadcastsInDim S200000 (![] : Fin 0 → Fin S200000.rank)
  bcast_S1200000_S1200000x1_0 : S1200000.BroadcastsInDim S1200000x1 (![0] : Fin 1 → Fin S1200000x1.rank)
  shapeCasts_S4x50000x1_S200000x1 : S4x50000x1.ShapeCasts S200000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S200000x64 : S_.BroadcastsInDim S200000x64 (![] : Fin 0 → Fin S200000x64.rank)
  shapeCasts_S64_S1x64 : S64.ShapeCasts S1x64
  shapeCasts_S200000_S200000x1 : S200000.ShapeCasts S200000x1
  shapeCasts_S5000x64_S5000x64 : S5000x64.ShapeCasts S5000x64
  broadcasts_S5000x1_S5000x64 : S5000x1.Broadcasts S5000x64
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S4x50000x64_S200000x64 : S4x50000x64.ShapeCasts S200000x64
  transposes_S192x64_S64x192_1_0 : S192x64.Transposes [1, 0] S64x192
  shapeCasts_S192_S1x192 : S192.ShapeCasts S1x192
  shapeCasts_S5_S1x5 : S5.ShapeCasts S1x5
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  inb_S2000x5_S2000x5_0_0 : ∀ a, (![0, 0] : Fin 2 → Nat) a + S2000x5.size a ≤ S2000x5.size a
  h_S2000x5 : 0 < S2000x5.numel
  shapeCasts_S200000x5_S4x50000x5 : S200000x5.ShapeCasts S4x50000x5
  shapeCasts_S200000x64_S4x50000x64 : S200000x64.ShapeCasts S4x50000x64
  scatter_S200000_S1200000x1_S1200000_n_0_0_1_wf : ScatterDims.WF S200000 S1200000x1 S1200000 [] [0] [0] 1
  dot_S5000x1_S1x64_S5000x64_1_0_0_1_n_n_wf : DotDims.WF S5000x1 S1x64 S5000x64 [1] [0] [0] [1] [] []
  gather_S200000_S1200000x1_S1200000_n_0_n_n_0_1_1_wf : GatherDims.WF S200000 S1200000x1 S1200000 [] [0] [] [0] [] 1 ![1]
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S5000x64_S64x64_S5000x64_1_0_0_1_n_n_wf : DotDims.WF S5000x64 S64x64 S5000x64 [1] [0] [0] [1] [] []
  dot_S2000x64_S64x192_S2000x192_1_0_0_1_n_n_wf : DotDims.WF S2000x64 S64x192 S2000x192 [1] [0] [0] [1] [] []
  dot_S2000x64_S64x5_S2000x5_1_0_0_1_n_n_wf : DotDims.WF S2000x64 S64x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S200000x1.size a
  hwx0_0 : ∀ i : grid0.Coords, EltTy.bits .f32 = 32 ∨ (Rect.block (s := S200000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S200000x64.size a
  hwx0_2 : ∀ i : grid0.Coords, EltTy.bits .f32 = 32 ∨ (Rect.block (s := S200000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S200000x64.size a
  hwx1_4 : ∀ i : grid1.Coords, EltTy.bits .f32 = 32 ∨ (Rect.block (s := S200000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S200000x64.size a
  hwx2_2 : ∀ i : grid2.Coords, EltTy.bits .f32 = 32 ∨ (Rect.block (s := S200000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S200000x1.size a
  hwx3_2 : ∀ i : grid3.Coords, EltTy.bits .f32 = 32 ∨ (Rect.block (s := S200000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S200000x64.size a
  hwx3_4 : ∀ i : grid3.Coords, EltTy.bits .f32 = 32 ∨ (Rect.block (s := S200000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S200000x64.size a
  hwx4_0 : ∀ i : grid4.Coords, EltTy.bits .f32 = 32 ∨ (Rect.block (s := S200000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S200000x64.size a
  hwx4_1 : ∀ i : grid4.Coords, EltTy.bits .f32 = 32 ∨ (Rect.block (s := S200000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x192.size a ≤ S64x192.size a
  hwx4_2 : ∀ i : grid4.Coords, EltTy.bits .f32 = 32 ∨ (Rect.block (s := S64x192) S64x192.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x192.size a ≤ S64x192.size a
  hwx4_3 : ∀ i : grid4.Coords, EltTy.bits .f32 = 32 ∨ (Rect.block (s := S64x192) S64x192.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x192.size a ≤ S1x192.size a
  hwx4_4 : ∀ i : grid4.Coords, EltTy.bits .f32 = 32 ∨ (Rect.block (s := S1x192) S1x192.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x192.size a ≤ S1x192.size a
  hwx4_5 : ∀ i : grid4.Coords, EltTy.bits .f32 = 32 ∨ (Rect.block (s := S1x192) S1x192.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x5.size a ≤ S64x5.size a
  hwx4_6 : ∀ i : grid4.Coords, EltTy.bits .f32 = 32 ∨ (Rect.block (s := S64x5) S64x5.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x5.size a ≤ S1x5.size a
  hwx4_7 : ∀ i : grid4.Coords, EltTy.bits .f32 = 32 ∨ (Rect.block (s := S1x5) S1x5.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x5.size a ≤ S200000x5.size a
  hwx4_8 : ∀ i : grid4.Coords, EltTy.bits .f32 = 32 ∨ (Rect.block (s := S200000x5) S2000x5.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x64.size a ≤ S200000x64.size a
  hwx4_9 : ∀ i : grid4.Coords, EltTy.bits .f32 = 32 ∨ (Rect.block (s := S200000x64) S2000x64.size (cc4_transform_9 i) (hinb4_9 i)).WholeWords (EltTy.packing .f32)

variable [Facts₀]

def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def dot_S5000x1_S1x64_S5000x64_1_0_0_1_n_n : DotDims S5000x1 S1x64 S5000x64 where
  lhsContracting := [1]
  rhsContracting := [0]
  lhsNonContracting := [0]
  rhsNonContracting := [1]
  lhsBatch := []
  rhsBatch := []
  wf := dot_S5000x1_S1x64_S5000x64_1_0_0_1_n_n_wf
def gather_S200000_S1200000x1_S1200000_n_0_n_n_0_1_1 : GatherDims S200000 S1200000x1 S1200000 where
  offsetDims := []
  collapsedSliceDims := [0]
  operandBatchingDims := []
  startIndicesBatchingDims := []
  startIndexMap := [0]
  indexVectorDim := 1
  sliceSizes := ![1]
  wf := gather_S200000_S1200000x1_S1200000_n_0_n_n_0_1_1_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf
def dot_S2000x64_S64x5_S2000x5_1_0_0_1_n_n : DotDims S2000x64 S64x5 S2000x5 where
  lhsContracting := [1]
  rhsContracting := [0]
  lhsNonContracting := [0]
  rhsNonContracting := [1]
  lhsBatch := []
  rhsBatch := []
  wf := dot_S2000x64_S64x5_S2000x5_1_0_0_1_n_n_wf

abbrev win0_0 : Pipeline.Window sig grid0 :=
  Pipeline.Window.ofSpec (Memref.whole main_v11) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v77) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S64x192.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S64x192.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x192.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S1x192.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg11) S64x5.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v83) S1x5.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v84_0) S2000x5.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v84_1) S2000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S4x50000x1 : Shape := ⟨3, ![4, 50000, 1]⟩
abbrev S1200000 : Shape := ⟨1, ![1200000]⟩
abbrev S4x50000x64 : Shape := ⟨3, ![4, 50000, 64]⟩
abbrev S1x64 : Shape := ⟨2, ![1, 64]⟩
abbrev S64 : Shape := ⟨1, ![64]⟩
abbrev S64x64 : Shape := ⟨2, ![64, 64]⟩
abbrev S192x64 : Shape := ⟨2, ![192, 64]⟩
abbrev S192 : Shape := ⟨1, ![192]⟩
abbrev S64x5 : Shape := ⟨2, ![64, 5]⟩
abbrev S5 : Shape := ⟨1, ![5]⟩
abbrev S2x1200000 : Shape := ⟨2, ![2, 1200000]⟩
abbrev S1x1200000 : Shape := ⟨2, ![1, 1200000]⟩
abbrev S_ : Shape := ⟨0, ![]⟩
abbrev S200000 : Shape := ⟨1, ![200000]⟩
abbrev S1200000x1 : Shape := ⟨2, ![1200000, 1]⟩
abbrev S200000x1 : Shape := ⟨2, ![200000, 1]⟩
abbrev S200000x64 : Shape := ⟨2, ![200000, 64]⟩
abbrev S1200000x64 : Shape := ⟨2, ![1200000, 64]⟩
abbrev S64x192 : Shape := ⟨2, ![64, 192]⟩
abbrev S200000x192 : Shape := ⟨2, ![200000, 192]⟩
abbrev S1x192 : Shape := ⟨2, ![1, 192]⟩
abbrev S200000x5 : Shape := ⟨2, ![200000, 5]⟩
abbrev S1x5 : Shape := ⟨2, ![1, 5]⟩
abbrev S4x50000x5 : Shape := ⟨3, ![4, 50000, 5]⟩

abbrev nBuf : Space → Nat
  | .hbm => 173
  | .vmem => 0
  | .smem => 0
  | _ => 0

abbrev hbmTy0_0 (i : Nat) : BufTy := match i % 128 with
  | 0 => ⟨S4x50000x1, .f32⟩
  | 1 => ⟨S1200000, .f32⟩
  | 2 => ⟨S4x50000x64, .f32⟩
  | 3 => ⟨S1x64, .f32⟩
  | 4 => ⟨S64, .f32⟩
  | 5 => ⟨S64x64, .f32⟩
  | 6 => ⟨S64, .f32⟩
  | 7 => ⟨S192x64, .f32⟩
  | 8 => ⟨S192x64, .f32⟩
  | 9 => ⟨S192, .f32⟩
  | 10 => ⟨S192, .f32⟩
  | 11 => ⟨S64x5, .f32⟩
  | 12 => ⟨S5, .f32⟩
  | 13 => ⟨S2x1200000, .i32⟩
  | 14 => ⟨S1x1200000, .i32⟩
  | 15 => ⟨S1200000, .i32⟩
  | 16 => ⟨S1x1200000, .i32⟩
  | 17 => ⟨S1200000, .i32⟩
  | 18 => ⟨S_, .f32⟩
  | 19 => ⟨S200000, .f32⟩
  | 20 => ⟨S1200000x1, .i32⟩
  | 21 => ⟨S200000, .f32⟩
  | 22 => ⟨S_, .f32⟩
  | 23 => ⟨S200000, .f32⟩
  | 24 => ⟨S200000, .f32⟩
  | 25 => ⟨S200000, .f32⟩
  | 26 => ⟨S200000x1, .f32⟩
  | 27 => ⟨S200000x64, .f32⟩
  | 28 => ⟨S_, .i32⟩
  | 29 => ⟨S1200000, .i32⟩
  | 30 => ⟨S1200000, .i1⟩
  | 31 => ⟨S_, .i32⟩
  | 32 => ⟨S1200000, .i32⟩
  | 33 => ⟨S1200000, .i32⟩
  | 34 => ⟨S1200000, .i32⟩
  | 35 => ⟨S1200000x1, .i32⟩
  | 36 => ⟨S1200000, .f32⟩
  | 37 => ⟨S1200000, .f32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000, .f32⟩
  | 47 => ⟨S1200000, .f32⟩
  | 48 => ⟨S_, .i32⟩
  | 49 => ⟨S1200000, .i32⟩
  | 50 => ⟨S1200000, .i1⟩
  | 51 => ⟨S_, .i32⟩
  | 52 => ⟨S1200000, .i32⟩
  | 53 => ⟨S1200000, .i32⟩
  | 54 => ⟨S1200000, .i32⟩
  | 55 => ⟨S1200000x1, .i32⟩
  | 56 => ⟨S1200000x64, .f32⟩
  | 57 => ⟨S1200000x1, .f32⟩
  | 58 => ⟨S1200000x64, .f32⟩
  | 59 => ⟨S1200000x64, .f32⟩
  | 60 => ⟨S_, .f32⟩
  | 61 => ⟨S200000x64, .f32⟩
  | 62 => ⟨S1200000x1, .i32⟩
  | 63 => ⟨S200000x64, .f32⟩
  | 64 => ⟨S200000, .f32⟩
  | 65 => ⟨S200000x1, .f32⟩
  | 66 => ⟨S200000x64, .f32⟩
  | 67 => ⟨S200000x64, .f32⟩
  | 68 => ⟨S200000x64, .f32⟩
  | 69 => ⟨S1x64, .f32⟩
  | 70 => ⟨S200000x64, .f32⟩
  | 71 => ⟨S200000x64, .f32⟩
  | 72 => ⟨S_, .f32⟩
  | 73 => ⟨S200000x64, .f32⟩
  | 74 => ⟨S200000x64, .f32⟩
  | 75 => ⟨S200000x64, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000, .f32⟩
  | 85 => ⟨S1200000, .f32⟩
  | 86 => ⟨S_, .i32⟩
  | 87 => ⟨S1200000, .i32⟩
  | 88 => ⟨S1200000, .i1⟩
  | 89 => ⟨S_, .i32⟩
  | 90 => ⟨S1200000, .i32⟩
  | 91 => ⟨S1200000, .i32⟩
  | 92 => ⟨S1200000, .i32⟩
  | 93 => ⟨S1200000x1, .i32⟩
  | 94 => ⟨S1200000, .f32⟩
  | 95 => ⟨S1200000, .f32⟩
  | 96 => ⟨S_, .i32⟩
  | 97 => ⟨S1200000, .i32⟩
  | 98 => ⟨S1200000, .i1⟩
  | 99 => ⟨S_, .i32⟩
  | 100 => ⟨S1200000, .i32⟩
  | 101 => ⟨S1200000, .i32⟩
  | 102 => ⟨S1200000, .i32⟩
  | 103 => ⟨S1200000x1, .i32⟩
  | 104 => ⟨S1200000x64, .f32⟩
  | 105 => ⟨S1200000x1, .f32⟩
  | 106 => ⟨S1200000x64, .f32⟩
  | 107 => ⟨S1200000x64, .f32⟩
  | 108 => ⟨S_, .f32⟩
  | 109 => ⟨S200000x64, .f32⟩
  | 110 => ⟨S1200000x1, .i32⟩
  | 111 => ⟨S200000x64, .f32⟩
  | 112 => ⟨S200000, .f32⟩
  | 113 => ⟨S200000x1, .f32⟩
  | 114 => ⟨S200000x64, .f32⟩
  | 115 => ⟨S200000x64, .f32⟩
  | 116 => ⟨S200000x64, .f32⟩
  | 117 => ⟨S1x64, .f32⟩
  | 118 => ⟨S200000x64, .f32⟩
  | 119 => ⟨S200000x64, .f32⟩
  | 120 => ⟨S_, .f32⟩
  | 121 => ⟨S200000x64, .f32⟩
  | 122 => ⟨S200000x64, .f32⟩
  | 123 => ⟨S200000x64, .f32⟩
  | 124 => ⟨S64x192, .f32⟩
  | 125 => ⟨S200000x192, .f32⟩
  | 126 => ⟨S1x192, .f32⟩
  | 127 => ⟨S200000x192, .f32⟩
  | _ => ⟨S4x50000x1, .f32⟩

abbrev hbmTy0_1 (i : Nat) : BufTy := match i % 128 with
  | 0 => ⟨S200000x192, .f32⟩
  | 1 => ⟨S64x192, .f32⟩
  | 2 => ⟨S200000x192, .f32⟩
  | 3 => ⟨S1x192, .f32⟩
  | 4 => ⟨S200000x192, .f32⟩
  | 5 => ⟨S200000x192, .f32⟩
  | 6 => ⟨S200000x64, .f32⟩
  | 7 => ⟨S200000x64, .f32⟩
  | 8 => ⟨S200000x64, .f32⟩
  | 9 => ⟨S200000x64, .f32⟩
  | 10 => ⟨S200000x64, .f32⟩
  | 11 => ⟨S200000x64, .f32⟩
  | 12 => ⟨S200000x64, .f32⟩
  | 13 => ⟨S200000x64, .f32⟩
  | 14 => ⟨S200000x64, .f32⟩
  | 15 => ⟨S_, .f32⟩
  | 16 => ⟨S200000x64, .f32⟩
  | 17 => ⟨S200000x64, .f32⟩
  | 18 => ⟨S_, .f32⟩
  | 19 => ⟨S200000x64, .f32⟩
  | 20 => ⟨S200000x64, .f32⟩
  | 21 => ⟨S200000x64, .f32⟩
  | 22 => ⟨S200000x64, .f32⟩
  | 23 => ⟨S200000x64, .f32⟩
  | 24 => ⟨S_, .f32⟩
  | 25 => ⟨S200000x64, .f32⟩
  | 26 => ⟨S200000x64, .f32⟩
  | 27 => ⟨S_, .f32⟩
  | 28 => ⟨S200000x64, .f32⟩
  | 29 => ⟨S200000x64, .f32⟩
  | 30 => ⟨S200000x64, .f32⟩
  | 31 => ⟨S200000x64, .f32⟩
  | 32 => ⟨S200000x64, .f32⟩
  | 33 => ⟨S_, .f32⟩
  | 34 => ⟨S200000x64, .f32⟩
  | 35 => ⟨S200000x64, .f32⟩
  | 36 => ⟨S200000x64, .f32⟩
  | 37 => ⟨S200000x64, .f32⟩
  | 38 => ⟨S200000x64, .f32⟩
  | 39 => ⟨S200000x5, .f32⟩
  | 40 => ⟨S1x5, .f32⟩
  | 41 => ⟨S200000x5, .f32⟩
  | 42 => ⟨S200000x5, .f32⟩
  | 43 => ⟨S4x50000x5, .f32⟩
  | 44 => ⟨S4x50000x64, .f32⟩
  | _ => ⟨S4x50000x1, .f32⟩

abbrev hbmTy (i : Nat) : BufTy := match i / 128 with
  | 0 => hbmTy0_0 i
  | 1 => hbmTy0_1 i
  | _ => ⟨S4x50000x1, .f32⟩

abbrev bufTy : (tb : Table) → Fin (tcTables nBuf tb) → BufTy
  | .hbm, ⟨i, _⟩ => hbmTy i
  | _, _ => ⟨S4x50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call0_cst : Ref sig .tc := ⟨.hbm, 72, rfl⟩
abbrev main_call0_v0 : Ref sig .tc := ⟨.hbm, 73, rfl⟩
abbrev main_v49 : Ref sig .tc := ⟨.hbm, 74, rfl⟩
abbrev main_v50 : Ref sig .tc := ⟨.hbm, 75, rfl⟩
abbrev main_c_7 : Ref sig .tc := ⟨.hbm, 76, rfl⟩
abbrev main_v51 : Ref sig .tc := ⟨.hbm, 77, rfl⟩
abbrev main_v52 : Ref sig .tc := ⟨.hbm, 78, rfl⟩
abbrev main_c_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_9 : Ref sig .tc := ⟨.hbm, 86, rfl⟩
abbrev main_v59 : Ref sig .tc := ⟨.hbm, 87, rfl⟩
abbrev main_v60 : Ref sig .tc := ⟨.hbm, 88, rfl⟩
abbrev main_c_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_11 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_13 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call1_cst : Ref sig .tc := ⟨.hbm, 120, rfl⟩
abbrev main_call1_v0 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_14 : Ref sig .tc := ⟨.hbm, 143, rfl⟩
abbrev main_v109 : Ref sig .tc := ⟨.hbm, 144, rfl⟩
abbrev main_v110 : Ref sig .tc := ⟨.hbm, 145, rfl⟩
abbrev main_cst_15 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_16 : Ref sig .tc := ⟨.hbm, 152, rfl⟩
abbrev main_v116 : Ref sig .tc := ⟨.hbm, 153, rfl⟩
abbrev main_v117 : Ref sig .tc := ⟨.hbm, 154, rfl⟩
abbrev main_cst_17 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_18 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S200000 : S_.BroadcastsInDim S200000 (![] : Fin 0 → Fin S200000.rank)
  bcast_S1200000_S1200000x1_0 : S1200000.BroadcastsInDim S1200000x1 (![0] : Fin 1 → Fin S1200000x1.rank)
  shapeCasts_S4x50000x1_S200000x1 : S4x50000x1.ShapeCasts S200000x1
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  shapeCasts_S4x50000x64_S200000x64 : S4x50000x64.ShapeCasts S200000x64
  transposes_S192x64_S64x192_1_0 : S192x64.Transposes [1, 0] S64x192
  bcast_S192_S1x192_1 : S192.BroadcastsInDim S1x192 (![1] : Fin 1 → Fin S1x192.rank)
  bcast_S1x192_S200000x192_0_1 : S1x192.BroadcastsInDim S200000x192 (![0, 1] : Fin 2 → Fin S200000x192.rank)
  slices_S200000x192_S200000x64_0_0 : S200000x192.Slices ![0, 0] S200000x64
  slices_S200000x192_S200000x64_0_64 : S200000x192.Slices ![0, 64] S200000x64
  slices_S200000x192_S200000x64_0_128 : S200000x192.Slices ![0, 128] S200000x64
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  shapeCasts_S200000x5_S4x50000x5 : S200000x5.ShapeCasts S4x50000x5
  shapeCasts_S200000x64_S4x50000x64 : S200000x64.ShapeCasts S4x50000x64
  scatter_S200000_S1200000x1_S1200000_n_0_0_1_wf : ScatterDims.WF S200000 S1200000x1 S1200000 [] [0] [0] 1
  dot_S200000x1_S1x64_S200000x64_1_0_0_1_n_n_wf : DotDims.WF S200000x1 S1x64 S200000x64 [1] [0] [0] [1] [] []
  gather_S200000_S1200000x1_S1200000_n_0_n_n_0_1_1_wf : GatherDims.WF S200000 S1200000x1 S1200000 [] [0] [] [0] [] 1 ![1]
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S200000x64_S64x64_S200000x64_1_0_0_1_n_n_wf : DotDims.WF S200000x64 S64x64 S200000x64 [1] [0] [0] [1] [] []
  dot_S200000x64_S64x192_S200000x192_1_0_0_1_n_n_wf : DotDims.WF S200000x64 S64x192 S200000x192 [1] [0] [0] [1] [] []
  dot_S200000x64_S64x5_S200000x5_1_0_0_1_n_n_wf : DotDims.WF S200000x64 S64x5 S200000x5 [1] [0] [0] [1] [] []

variable [Facts₀]

def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def dot_S200000x1_S1x64_S200000x64_1_0_0_1_n_n : DotDims S200000x1 S1x64 S200000x64 where
  lhsContracting := [1]
  rhsContracting := [0]
  lhsNonContracting := [0]
  rhsNonContracting := [1]
  lhsBatch := []
  rhsBatch := []
  wf := dot_S200000x1_S1x64_S200000x64_1_0_0_1_n_n_wf
def gather_S200000_S1200000x1_S1200000_n_0_n_n_0_1_1 : GatherDims S200000 S1200000x1 S1200000 where
  offsetDims := []
  collapsedSliceDims := [0]
  operandBatchingDims := []
  startIndicesBatchingDims := []
  startIndexMap := [0]
  indexVectorDim := 1
  sliceSizes := ![1]
  wf := gather_S200000_S1200000x1_S1200000_n_0_n_n_0_1_1_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x192_S200000x192_1_0_0_1_n_n : DotDims S200000x64 S64x192 S200000x192 where
  lhsContracting := [1]
  rhsContracting := [0]
  lhsNonContracting := [0]
  rhsNonContracting := [1]
  lhsBatch := []
  rhsBatch := []
  wf := dot_S200000x64_S64x192_S200000x192_1_0_0_1_n_n_wf
def dot_S200000x64_S64x5_S200000x5_1_0_0_1_n_n : DotDims S200000x64 S64x5 S200000x5 where
  lhsContracting := [1]
  rhsContracting := [0]
  lhsNonContracting := [0]
  rhsNonContracting := [1]
  lhsBatch := []
  rhsBatch := []
  wf := dot_S200000x64_S64x5_S200000x5_1_0_0_1_n_n_wf

class Facts : Prop extends Facts₀ where

variable [Facts]
-- ==== Proof.KernelRun.lean ====
/-
  The idealized kernel's whole run with its two result buffers NAMED. The program is five pipelined regions among
  stretches of host operations; the contents of every unscoped buffer at each boundary are a fold from the launch
  memory (`W0` … `W10`: a host stretch applies its operations, a region replaces its arrays by what its
  write-backs leave). Every weakly fair execution terminates, and in the final state each unscoped buffer holds the
  last boundary's contents: read here at the two results and at the fourteen arguments (which no operation and no
  region writes).
-/
import proofs.«120230_j24111946400619_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, the
    two results at the last boundary's contents and the arguments as launched. -/
theorem run : θ_run defs (onTc (τ := τ) (main (F := F))) ⟨m, fun _ => 0, ρ⟩ (fun r => ∀ c : Dev nD,
      r.2.mem ((c.tc : Thread nD τ).loc main_v85) = W10 m ρ c (Proc.devRef .tc main_v85)
      ∧ r.2.mem ((c.tc : Thread nD τ).loc main_v86) = W10 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v85 (by decide)),
       h c _ (mem_uc main_v86 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.Named

end
-- ==== Proof.Spec.lean ====
/-
  The five dense stages of the network, each as ONE function of whole arrays over the 200000 flattened nodes,
  written with the host operations the reference applies, in its order.

  * `proj1`, `proj2`: a node-feature matrix times a weight matrix (one input feature, then 64).
  * `combine`: one graph-convolution layer's last step, `max (agg + d * xw + b) 0`, where `agg` is the
    edge-aggregated messages, `d` the column of squared inverse root degrees spread over the 64 features, and
    `b` the bias row spread over the nodes.
  * `gruHidden`: the gated recurrent cell. With `gi = xf * wih + bih` and `gh = hf * whh + bhh` (192 columns
    each, cut into three groups of 64), `r = sigma (gi_0 + gh_0)`, `z = sigma (gi_1 + gh_1)`,
    `n = tanh (gi_2 + r * gh_2)`, and the new state is `(1 - z) * n + z * hf`; `sigma x = 1 / (1 + exp (-x))`.
  * `gruOut`: the linear head, the new state times `fcw` plus the bias row `fcb`.
-/
import proofs.«120230_j24111946400619_1_alg».proof.Proof.Gen.ReferenceIdeal

noncomputable section

namespace Cert.Bridge

open Cert.ReferenceIdeal Cert.ReferenceIdeal.Gen Idealize.ShloMosaic

variable {F : FTy → Type} [FloatOps F]

/-- Node features with one column times a [1, 64] weight row. -/
def proj1 (X : FVec F S200000x1 .f32) (W : FVec F S1x64 .f32) : FVec F S200000x64 .f32 :=
  Host.dotGeneral dot_S200000x1_S1x64_S200000x64_1_0_0_1_n_n none X W

/-- Node features with 64 columns times a [64, 64] weight matrix. -/
def proj2 (X : FVec F S200000x64 .f32) (W : FVec F S64x64 .f32) : FVec F S200000x64 .f32 :=
  Host.dotGeneral dot_S200000x64_S64x64_S200000x64_1_0_0_1_n_n none X W

/-- `max (agg + d * xw + b) 0`: `d` a column [200000, 1] spread over the features, `b` a row [1, 64] spread
    over the nodes. -/
def combine (xw agg : FVec F S200000x64 .f32) (d : FVec F S200000x1 .f32) (b : FVec F S1x64 .f32) :
    FVec F S200000x64 .f32 :=
  maximumf
    (addf (addf agg (mulf (broadcastInDim S200000x64 ![0, 1] bcast_S200000x1_S200000x64_0_1 d) xw))
      (broadcastInDim S200000x64 ![0, 1] bcast_S1x64_S200000x64_0_1 b))
    (broadcastInDim S200000x64 ![] bcast_S_S200000x64 (constant S_ .f32 0x00000000#32))

/-- One side's three gate pre-activations: a [200000, 64] matrix times a [64, 192] matrix plus a bias row. -/
def gates (X : FVec F S200000x64 .f32) (Wt : FVec F S64x192 .f32) (b : FVec F S1x192 .f32) :
    FVec F S200000x192 .f32 :=
  addf (Host.dotGeneral dot_S200000x64_S64x192_S200000x192_1_0_0_1_n_n none X Wt)
    (broadcastInDim S200000x192 ![0, 1] bcast_S1x192_S200000x192_0_1 b)

/-- The array of ones. -/
def ones : FVec F S200000x64 .f32 :=
  broadcastInDim S200000x64 ![] bcast_S_S200000x64 (constant S_ .f32 0x3F800000#32)

/-- `1 / (1 + exp (-x))`, entry by entry. -/
def sigma (x : FVec F S200000x64 .f32) : FVec F S200000x64 .f32 :=
  Host.divf ones (addf ones (Host.exp (Host.negf x)))

/-- The reset gate `r`. -/
def gateR (gi gh : FVec F S200000x192 .f32) : FVec F S200000x64 .f32 :=
  sigma (addf (extractStridedSlice S200000x64 ![0, 0] gi slices_S200000x192_S200000x64_0_0)
    (extractStridedSlice S200000x64 ![0, 0] gh slices_S200000x192_S200000x64_0_0))

/-- The update gate `z`. -/
def gateZ (gi gh : FVec F S200000x192 .f32) : FVec F S200000x64 .f32 :=
  sigma (addf (extractStridedSlice S200000x64 ![0, 64] gi slices_S200000x192_S200000x64_0_64)
    (extractStridedSlice S200000x64 ![0, 64] gh slices_S200000x192_S200000x64_0_64))

/-- The candidate state `n`. -/
def gateN (gi gh : FVec F S200000x192 .f32) : FVec F S200000x64 .f32 :=
  Host.tanh (addf (extractStridedSlice S200000x64 ![0, 128] gi slices_S200000x192_S200000x64_0_128)
    (mulf (gateR gi gh) (extractStridedSlice S200000x64 ![0, 128] gh slices_S200000x192_S200000x64_0_128)))

/-- The cell's new state from the two sides' pre-activations and the old state. -/
def cell (gi gh : FVec F S200000x192 .f32) (hf : FVec F S200000x64 .f32) : FVec F S200000x64 .f32 :=
  addf (mulf (subf ones (gateZ gi gh)) (gateN gi gh)) (mulf (gateZ gi gh) hf)

/-- The gated recurrent cell's new state. -/
def gruHidden (xf hf : FVec F S200000x64 .f32) (wih whh : FVec F S64x192 .f32) (bih bhh : FVec F S1x192 .f32) :
    FVec F S200000x64 .f32 :=
  cell (gates xf wih bih) (gates hf whh bhh) hf

/-- The linear head on a state. -/
def gruOut (hnew : FVec F S200000x64 .f32) (fcw : FVec F S64x5 .f32) (fcb : FVec F S1x5 .f32) :
    FVec F S200000x5 .f32 :=
  addf (Host.dotGeneral dot_S200000x64_S64x5_S200000x5_1_0_0_1_n_n none hnew fcw)
    (broadcastInDim S200000x5 ![0, 1] bcast_S1x5_S200000x5_0_1 fcb)

end Cert.Bridge

end
-- ==== Proof.Chain.lean ====
/-
  The edge aggregation both programs run on the host between two dense stages, as ONE function. For every edge e
  with endpoints src e, dst e (a negative node number counts from the end: 200000 is added) and weight ew e, the
  message is row src e of the projected features times dinv (src e) * ew e * dinv (dst e); the messages are summed
  into row dst e of a zero table.
-/
import proofs.«120230_j24111946400619_1_alg».proof.Proof.Gen.ReferenceIdeal

noncomputable section

namespace Cert.Bridge

open Cert.ReferenceIdeal Cert.ReferenceIdeal.Gen Idealize.ShloMosaic

variable {F : FTy → Type} [FloatOps F]

/-- Signed node numbers wrapped into range and set as a column of row numbers. -/
def wrapIdx (s : (⟨S1200000, .i32⟩ : BufTy).Contents (Elt F)) : (⟨S1200000x1, .i32⟩ : BufTy).Contents (Elt F) :=
  broadcastInDim S1200000x1 ![0] bcast_S1200000_S1200000x1_0
    (select (cmpi .slt s (broadcastInDim S1200000 ![] bcast_S_S1200000 (constantI S_ 32 0#32)))
      (addi s (broadcastInDim S1200000 ![] bcast_S_S1200000 (constantI S_ 32 200000#32))) s)

/-- The edge's factor dinv (src e) * ew e * dinv (dst e). -/
def edgeNorm (dinv : (⟨S200000, .f32⟩ : BufTy).Contents (Elt F)) (src dst : (⟨S1200000, .i32⟩ : BufTy).Contents (Elt F))
    (ew : (⟨S1200000, .f32⟩ : BufTy).Contents (Elt F)) : (⟨S1200000, .f32⟩ : BufTy).Contents (Elt F) :=
  mulf (mulf (Host.gather gather_S200000_S1200000x1_S1200000_n_0_n_n_0_1_1 dinv (wrapIdx src)) ew)
    (Host.gather gather_S200000_S1200000x1_S1200000_n_0_n_n_0_1_1 dinv (wrapIdx dst))

/-- The messages gathered, scaled and summed into their destination rows. -/
def aggregate (xw : (⟨S200000x64, .f32⟩ : BufTy).Contents (Elt F)) (dinv : (⟨S200000, .f32⟩ : BufTy).Contents (Elt F))
    (src dst : (⟨S1200000, .i32⟩ : BufTy).Contents (Elt F)) (ew : (⟨S1200000, .f32⟩ : BufTy).Contents (Elt F)) :
    (⟨S200000x64, .f32⟩ : BufTy).Contents (Elt F) :=
  Host.scatterAdd scatter_S200000x64_S1200000x1_S1200000x64_1_0_0_1
    (broadcastInDim S200000x64 ![] bcast_S_S200000x64 (constant S_ .f32 0x00000000#32))
    (broadcastInDim S1200000x1 ![0] bcast_S1200000_S1200000x1_0 dst)
    (mulf (Host.gather gather_S200000x64_S1200000x1_S1200000x64_1_0_n_n_0_1_164 xw (wrapIdx src))
      (broadcastInDim S1200000x64 ![0, 1] bcast_S1200000x1_S1200000x64_0_1
        (broadcastInDim S1200000x1 ![0] bcast_S1200000_S1200000x1_0 (edgeNorm dinv src dst ew))))

end Cert.Bridge

end
-- ==== Proof.RefStages.lean ====
/-
  The reference program's stages are the dense stages and the edge aggregation of earlier stages: each equation
  below holds by unfolding the definitions on both sides.
-/
import proofs.«120230_j24111946400619_1_alg».proof.Proof.Gen.ReferenceIdeal.Read
import proofs.«120230_j24111946400619_1_alg».proof.Proof.Spec
import proofs.«120230_j24111946400619_1_alg».proof.Proof.Chain

set_option maxRecDepth 8192

noncomputable section

namespace Cert.Bridge.Ref

open Cert.ReferenceIdeal Cert.ReferenceIdeal.Gen Cert.ReferenceIdeal.Read Idealize.ShloMosaic Cert.Bridge

variable {F : FTy → Type} [FloatOps F]
variable (x0 : (⟨S4x50000x1, .f32⟩ : BufTy).Contents (Elt F)) (x1 : (⟨S1200000, .f32⟩ : BufTy).Contents (Elt F))
  (x2 : (⟨S4x50000x64, .f32⟩ : BufTy).Contents (Elt F)) (x3 : (⟨S1x64, .f32⟩ : BufTy).Contents (Elt F))
  (x4 : (⟨S64, .f32⟩ : BufTy).Contents (Elt F)) (x5 : (⟨S64x64, .f32⟩ : BufTy).Contents (Elt F))
  (x6 : (⟨S64, .f32⟩ : BufTy).Contents (Elt F)) (x7 : (⟨S192x64, .f32⟩ : BufTy).Contents (Elt F))
  (x8 : (⟨S192x64, .f32⟩ : BufTy).Contents (Elt F)) (x9 : (⟨S192, .f32⟩ : BufTy).Contents (Elt F))
  (x10 : (⟨S192, .f32⟩ : BufTy).Contents (Elt F)) (x11 : (⟨S64x5, .f32⟩ : BufTy).Contents (Elt F))
  (x12 : (⟨S5, .f32⟩ : BufTy).Contents (Elt F)) (x13 : (⟨S2x1200000, .i32⟩ : BufTy).Contents (Elt F))

/-- The first projection. -/
theorem v11_eq : val_main_v11 (F := F) x0 x3 = proj1 (val_main_v10 (F := F) x0) x3 := rfl

/-- The first layer's aggregated messages. -/
theorem v40_eq : val_main_v40 (F := F) x0 x1 x3 x13
    = aggregate (val_main_v11 (F := F) x0 x3) (val_main_v9 (F := F) x1 x13) (val_main_v1 (F := F) x13) (val_main_v3 (F := F) x13) x1 := rfl

/-- The first layer's output. -/
theorem v49_eq : val_main_v49 (F := F) x0 x1 x3 x4 x13
    = combine (val_main_v11 (F := F) x0 x3) (val_main_v40 (F := F) x0 x1 x3 x13) (val_main_v42 (F := F) x1 x13) (val_main_v46 (F := F) x4) := rfl

/-- The second projection. -/
theorem v50_eq : val_main_v50 (F := F) x0 x1 x3 x4 x5 x13 = proj2 (val_main_v49 (F := F) x0 x1 x3 x4 x13) x5 := rfl

/-- The second layer's aggregated messages. -/
theorem v79_eq : val_main_v79 (F := F) x0 x1 x3 x4 x5 x13
    = aggregate (val_main_v50 (F := F) x0 x1 x3 x4 x5 x13) (val_main_v9 (F := F) x1 x13) (val_main_v1 (F := F) x13) (val_main_v3 (F := F) x13) x1 := rfl

/-- The second layer's output. -/
theorem v88_eq : val_main_v88 (F := F) x0 x1 x3 x4 x5 x6 x13
    = combine (val_main_v50 (F := F) x0 x1 x3 x4 x5 x13) (val_main_v79 (F := F) x0 x1 x3 x4 x5 x13) (val_main_v81 (F := F) x1 x13) (val_main_v85 (F := F) x6) := rfl

/-- The cell's new state. -/
theorem v127_eq : val_main_v127 (F := F) x0 x1 x2 x3 x4 x5 x6 x7 x8 x9 x10 x13
    = gruHidden (val_main_v88 (F := F) x0 x1 x3 x4 x5 x6 x13) (val_main_v89 (F := F) x2) (val_main_v90 (F := F) x7) (val_main_v95 (F := F) x8)
        (val_main_v92 (F := F) x9) (val_main_v97 (F := F) x10) := rfl

/-- The head's output. -/
theorem v131_eq : val_main_v131 (F := F) x0 x1 x2 x3 x4 x5 x6 x7 x8 x9 x10 x11 x12 x13
    = gruOut (val_main_v127 (F := F) x0 x1 x2 x3 x4 x5 x6 x7 x8 x9 x10 x13) x11 (val_main_v129 (F := F) x12) := rfl

/-- The squared inverse root degree is computed twice in the reference, by one expression. -/
theorem v80_eq : val_main_v80 (F := F) x1 x13 = val_main_v41 (F := F) x1 x13 := rfl

end Cert.Bridge.Ref

end
-- ==== Proof.Host0.lean ====
/-
  The first host stretch (the edge endpoints cut out of the edge table, the weighted in-degree plus one, its
  inverse square root and that squared, the node features as a one-column matrix): what it leaves in each
  buffer a later stage reads, as the reference's own stage of the argument arrays; an argument array is left as it was.
-/
import proofs.«120230_j24111946400619_1_alg».proof.Proof.Gen.KernelIdeal.Launch
import proofs.«120230_j24111946400619_1_alg».proof.Proof.Gen.ReferenceIdeal.Read
import proofs.«120230_j24111946400619_1_alg».proof.Proof.Chain
import Idealize.ShloMosaic.Lib.StableHlo.Run
import Idealize.ShloMosaic.PureOps.Ideal

set_option maxRecDepth 16384

noncomputable section

namespace Cert.Bridge.Host

open Cert.KernelIdeal Cert.KernelIdeal.Gen
open Idealize.ShloMosaic Idealize.ShloMosaic.TcCoe Idealize.SL.Sem Idealize.ShloMosaic.StableHlo

variable (W : Valuation τ sig (Elt Ideal))

theorem h0_v11 : StableHlo.after (hostOps0 (F := Ideal)) W (Proc.devRef .tc main_v11)
    = Cert.ReferenceIdeal.Read.val_main_v10 (F := Ideal) (W (Proc.devRef .tc main_arg0)) := by
  dsimp only [hostOps0]
  after_results_simp
  rfl
theorem h0_v9 : StableHlo.after (hostOps0 (F := Ideal)) W (Proc.devRef .tc main_v9)
    = Cert.ReferenceIdeal.Read.val_main_v9 (F := Ideal) (W (Proc.devRef .tc main_arg1)) (W (Proc.devRef .tc main_arg13)) := by
  dsimp only [hostOps0]
  after_results_simp
  rfl
theorem h0_v10 : StableHlo.after (hostOps0 (F := Ideal)) W (Proc.devRef .tc main_v10)
    = Cert.ReferenceIdeal.Read.val_main_v41 (F := Ideal) (W (Proc.devRef .tc main_arg1)) (W (Proc.devRef .tc main_arg13)) := by
  dsimp only [hostOps0]
  after_results_simp
  rfl
theorem h0_v1 : StableHlo.after (hostOps0 (F := Ideal)) W (Proc.devRef .tc main_v1)
    = Cert.ReferenceIdeal.Read.val_main_v1 (F := Ideal) (W (Proc.devRef .tc main_arg13)) := by
  dsimp only [hostOps0]
  after_results_simp
  rfl
theorem h0_v3 : StableHlo.after (hostOps0 (F := Ideal)) W (Proc.devRef .tc main_v3)
    = Cert.ReferenceIdeal.Read.val_main_v3 (F := Ideal) (W (Proc.devRef .tc main_arg13)) := by
  dsimp only [hostOps0]
  after_results_simp
  rfl
theorem h0_arg1 : StableHlo.after (hostOps0 (F := Ideal)) W (Proc.devRef .tc main_arg1) = W (Proc.devRef .tc main_arg1) := by
  dsimp only [hostOps0]
  after_results_simp
theorem h0_arg2 : StableHlo.after (hostOps0 (F := Ideal)) W (Proc.devRef .tc main_arg2) = W (Proc.devRef .tc main_arg2) := by
  dsimp only [hostOps0]
  after_results_simp
theorem h0_arg3 : StableHlo.after (hostOps0 (F := Ideal)) W (Proc.devRef .tc main_arg3) = W (Proc.devRef .tc main_arg3) := by
  dsimp only [hostOps0]
  after_results_simp
theorem h0_arg4 : StableHlo.after (hostOps0 (F := Ideal)) W (Proc.devRef .tc main_arg4) = W (Proc.devRef .tc main_arg4) := by
  dsimp only [hostOps0]
  after_results_simp
theorem h0_arg5 : StableHlo.after (hostOps0 (F := Ideal)) W (Proc.devRef .tc main_arg5) = W (Proc.devRef .tc main_arg5) := by
  dsimp only [hostOps0]
  after_results_simp
theorem h0_arg6 : StableHlo.after (hostOps0 (F := Ideal)) W (Proc.devRef .tc main_arg6) = W (Proc.devRef .tc main_arg6) := by
  dsimp only [hostOps0]
  after_results_simp
theorem h0_arg7 : StableHlo.after (hostOps0 (F := Ideal)) W (Proc.devRef .tc main_arg7) = W (Proc.devRef .tc main_arg7) := by
  dsimp only [hostOps0]
  after_results_simp
theorem h0_arg8 : StableHlo.after (hostOps0 (F := Ideal)) W (Proc.devRef .tc main_arg8) = W (Proc.devRef .tc main_arg8) := by
  dsimp only [hostOps0]
  after_results_simp
theorem h0_arg9 : StableHlo.after (hostOps0 (F := Ideal)) W (Proc.devRef .tc main_arg9) = W (Proc.devRef .tc main_arg9) := by
  dsimp only [hostOps0]
  after_results_simp
theorem h0_arg10 : StableHlo.after (hostOps0 (F := Ideal)) W (Proc.devRef .tc main_arg10) = W (Proc.devRef .tc main_arg10) := by
  dsimp only [hostOps0]
  after_results_simp
theorem h0_arg11 : StableHlo.after (hostOps0 (F := Ideal)) W (Proc.devRef .tc main_arg11) = W (Proc.devRef .tc main_arg11) := by
  dsimp only [hostOps0]
  after_results_simp
theorem h0_arg12 : StableHlo.after (hostOps0 (F := Ideal)) W (Proc.devRef .tc main_arg12) = W (Proc.devRef .tc main_arg12) := by
  dsimp only [hostOps0]
  after_results_simp

end Cert.Bridge.Host

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.LibVectorAsMatrix.lean ====
/-
  Two ways of setting a vector as a one-column or a one-row matrix give the same array: a reshape [n] → [n, 1]
  and the broadcast that sends the vector's axis to axis 0 both read, at (r, u), the vector at r; a reshape
  [n] → [1, n] and the broadcast that sends the vector's axis to axis 1 both read, at (u, q), the vector at q.
-/
import proofs.«120230_j24111946400619_1_alg».proof.Proof.LibKeepdims
import proofs.«120230_j24111946400619_1_alg».proof.Proof.LibBroadcastInDim
import Idealize.ShloMosaic.Lib.ValueLayout
import Idealize.ShloMosaic.Lib.ValueIdx

namespace Cert.Lib.VectorAsMatrix

open Idealize.ShloMosaic Idealize.ShloMosaic.ValueIdx

variable {α : Type}

/-- A vector reshaped to a column is the vector broadcast along axis 0 of the column's shape. -/
theorem col_eq {n : ℕ} (x : (⟨1, ![n]⟩ : Shape).Idx → α) (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ x h = broadcastInDim ⟨2, ![n, 1]⟩ (![0] : Fin 1 → Fin 2) h' x := by
  funext j
  obtain ⟨r, u, rfl⟩ : ∃ (r : Fin n) (u : Fin 1), j = ix2 r u := ⟨j 0, j 1, eq_ix2 j⟩
  rw [Cert.Lib.Keepdims.shapeCast_a_a1_apply, Cert.Lib.BroadcastInDim.vec_col_apply]

/-- A vector reshaped to a row is the vector broadcast along axis 1 of the row's shape. -/
theorem row_eq {n : ℕ} (x : (⟨1, ![n]⟩ : Shape).Idx → α) (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) h' x := by
  funext j
  obtain ⟨u, q, rfl⟩ : ∃ (u : Fin 1) (q : Fin n), j = ix2 u q := ⟨j 0, j 1, eq_ix2 j⟩
  rw [shapeCast_a_1a_apply, Cert.Lib.BroadcastInDim.vec_row_apply]

end Cert.Lib.VectorAsMatrix
-- ==== Proof.Host1.lean ====
/-
  The second host stretch (the first layer's edge aggregation of the projected features, the bias as a row, the
  squared inverse root degree as a column): what it leaves in each buffer a later stage reads; every other buffer
  named below is left as it was.
-/
import proofs.«120230_j24111946400619_1_alg».proof.Proof.Gen.KernelIdeal.Launch
import proofs.«120230_j24111946400619_1_alg».proof.Proof.Gen.ReferenceIdeal.Read
import proofs.«120230_j24111946400619_1_alg».proof.Proof.Chain
import proofs.«120230_j24111946400619_1_alg».proof.Proof.LibVectorAsMatrix
import Idealize.ShloMosaic.Lib.StableHlo.Run
import Idealize.ShloMosaic.PureOps.Ideal

set_option maxRecDepth 16384

noncomputable section

namespace Cert.Bridge.Host

open Cert.KernelIdeal Cert.KernelIdeal.Gen
open Idealize.ShloMosaic Idealize.ShloMosaic.TcCoe Idealize.SL.Sem Idealize.ShloMosaic.StableHlo

variable (W : Valuation τ sig (Elt Ideal))

theorem h1_v41 : StableHlo.after (hostOps1 (F := Ideal)) W (Proc.devRef .tc main_v41)
    = Cert.Bridge.aggregate (F := Ideal) (W (Proc.devRef .tc main_v12)) (W (Proc.devRef .tc main_v9)) (W (Proc.devRef .tc main_v1)) (W (Proc.devRef .tc main_v3)) (W (Proc.devRef .tc main_arg1)) := by
  dsimp only [hostOps1]
  after_results_simp
  rfl
theorem h1_v42 : StableHlo.after (hostOps1 (F := Ideal)) W (Proc.devRef .tc main_v42)
    = Cert.ReferenceIdeal.Read.val_main_v46 (F := Ideal) (W (Proc.devRef .tc main_arg4)) := by
  dsimp only [hostOps1]
  after_results_simp
  exact Cert.Lib.VectorAsMatrix.row_eq _ _ _
theorem h1_v43 : StableHlo.after (hostOps1 (F := Ideal)) W (Proc.devRef .tc main_v43)
    = broadcastInDim Cert.ReferenceIdeal.S200000x1 ![0] Cert.ReferenceIdeal.Gen.bcast_S200000_S200000x1_0 (W (Proc.devRef .tc main_v10)) := by
  dsimp only [hostOps1]
  after_results_simp
  exact Cert.Lib.VectorAsMatrix.col_eq _ _ _
theorem h1_v12 : StableHlo.after (hostOps1 (F := Ideal)) W (Proc.devRef .tc main_v12) = W (Proc.devRef .tc main_v12) := by
  dsimp only [hostOps1]
  after_results_simp
theorem h1_v9 : StableHlo.after (hostOps1 (F := Ideal)) W (Proc.devRef .tc main_v9) = W (Proc.devRef .tc main_v9) := by
  dsimp only [hostOps1]
  after_results_simp
theorem h1_v10 : StableHlo.after (hostOps1 (F := Ideal)) W (Proc.devRef .tc main_v10) = W (Proc.devRef .tc main_v10) := by
  dsimp only [hostOps1]
  after_results_simp
theorem h1_v1 : StableHlo.after (hostOps1 (F := Ideal)) W (Proc.devRef .tc main_v1) = W (Proc.devRef .tc main_v1) := by
  dsimp only [hostOps1]
  after_results_simp
theorem h1_v3 : StableHlo.after (hostOps1 (F := Ideal)) W (Proc.devRef .tc main_v3) = W (Proc.devRef .tc main_v3) := by
  dsimp only [hostOps1]
  after_results_simp
theorem h1_arg1 : StableHlo.after (hostOps1 (F := Ideal)) W (Proc.devRef .tc main_arg1) = W (Proc.devRef .tc main_arg1) := by
  dsimp only [hostOps1]
  after_results_simp
theorem h1_arg2 : StableHlo.after (hostOps1 (F := Ideal)) W (Proc.devRef .tc main_arg2) = W (Proc.devRef .tc main_arg2) := by
  dsimp only [hostOps1]
  after_results_simp
theorem h1_arg5 : StableHlo.after (hostOps1 (F := Ideal)) W (Proc.devRef .tc main_arg5) = W (Proc.devRef .tc main_arg5) := by
  dsimp only [hostOps1]
  after_results_simp
theorem h1_arg6 : StableHlo.after (hostOps1 (F := Ideal)) W (Proc.devRef .tc main_arg6) = W (Proc.devRef .tc main_arg6) := by
  dsimp only [hostOps1]
  after_results_simp
theorem h1_arg7 : StableHlo.after (hostOps1 (F := Ideal)) W (Proc.devRef .tc main_arg7) = W (Proc.devRef .tc main_arg7) := by
  dsimp only [hostOps1]
  after_results_simp
theorem h1_arg8 : StableHlo.after (hostOps1 (F := Ideal)) W (Proc.devRef .tc main_arg8) = W (Proc.devRef .tc main_arg8) := by
  dsimp only [hostOps1]
  after_results_simp
theorem h1_arg9 : StableHlo.after (hostOps1 (F := Ideal)) W (Proc.devRef .tc main_arg9) = W (Proc.devRef .tc main_arg9) := by
  dsimp only [hostOps1]
  after_results_simp
theorem h1_arg10 : StableHlo.after (hostOps1 (F := Ideal)) W (Proc.devRef .tc main_arg10) = W (Proc.devRef .tc main_arg10) := by
  dsimp only [hostOps1]
  after_results_simp
theorem h1_arg11 : StableHlo.after (hostOps1 (F := Ideal)) W (Proc.devRef .tc main_arg11) = W (Proc.devRef .tc main_arg11) := by
  dsimp only [hostOps1]
  after_results_simp
theorem h1_arg12 : StableHlo.after (hostOps1 (F := Ideal)) W (Proc.devRef .tc main_arg12) = W (Proc.devRef .tc main_arg12) := by
  dsimp only [hostOps1]
  after_results_simp

end Cert.Bridge.Host

end
-- ==== Proof.Host3.lean ====
/-
  The third host stretch (the second layer's edge aggregation, its bias as a row, the squared inverse root degree
  as a column): what it leaves in each buffer a later stage reads; every other buffer named below is left as it was.
-/
import proofs.«120230_j24111946400619_1_alg».proof.Proof.Gen.KernelIdeal.Launch
import proofs.«120230_j24111946400619_1_alg».proof.Proof.Gen.ReferenceIdeal.Read
import proofs.«120230_j24111946400619_1_alg».proof.Proof.Chain
import proofs.«120230_j24111946400619_1_alg».proof.Proof.LibVectorAsMatrix
import Idealize.ShloMosaic.Lib.StableHlo.Run
import Idealize.ShloMosaic.PureOps.Ideal

set_option maxRecDepth 16384

noncomputable section

namespace Cert.Bridge.Host

open Cert.KernelIdeal Cert.KernelIdeal.Gen
open Idealize.ShloMosaic Idealize.ShloMosaic.TcCoe Idealize.SL.Sem Idealize.ShloMosaic.StableHlo

variable (W : Valuation τ sig (Elt Ideal))

theorem h3_v74 : StableHlo.after (hostOps3 (F := Ideal)) W (Proc.devRef .tc main_v74)
    = Cert.Bridge.aggregate (F := Ideal) (W (Proc.devRef .tc main_v45)) (W (Proc.devRef .tc main_v9)) (W (Proc.devRef .tc main_v1)) (W (Proc.devRef .tc main_v3)) (W (Proc.devRef .tc main_arg1)) := by
  dsimp only [hostOps3]
  after_results_simp
  rfl
theorem h3_v75 : StableHlo.after (hostOps3 (F := Ideal)) W (Proc.devRef .tc main_v75)
    = Cert.ReferenceIdeal.Read.val_main_v85 (F := Ideal) (W (Proc.devRef .tc main_arg6)) := by
  dsimp only [hostOps3]
  after_results_simp
  exact Cert.Lib.VectorAsMatrix.row_eq _ _ _
theorem h3_v76 : StableHlo.after (hostOps3 (F := Ideal)) W (Proc.devRef .tc main_v76)
    = broadcastInDim Cert.ReferenceIdeal.S200000x1 ![0] Cert.ReferenceIdeal.Gen.bcast_S200000_S200000x1_0 (W (Proc.devRef .tc main_v10)) := by
  dsimp only [hostOps3]
  after_results_simp
  exact Cert.Lib.VectorAsMatrix.col_eq _ _ _
theorem h3_v45 : StableHlo.after (hostOps3 (F := Ideal)) W (Proc.devRef .tc main_v45) = W (Proc.devRef .tc main_v45) := by
  dsimp only [hostOps3]
  after_results_simp
theorem h3_arg2 : StableHlo.after (hostOps3 (F := Ideal)) W (Proc.devRef .tc main_arg2) = W (Proc.devRef .tc main_arg2) := by
  dsimp only [hostOps3]
  after_results_simp
theorem h3_arg7 : StableHlo.after (hostOps3 (F := Ideal)) W (Proc.devRef .tc main_arg7) = W (Proc.devRef .tc main_arg7) := by
  dsimp only [hostOps3]
  after_results_simp
theorem h3_arg8 : StableHlo.after (hostOps3 (F := Ideal)) W (Proc.devRef .tc main_arg8) = W (Proc.devRef .tc main_arg8) := by
  dsimp only [hostOps3]
  after_results_simp
theorem h3_arg9 : StableHlo.after (hostOps3 (F := Ideal)) W (Proc.devRef .tc main_arg9) = W (Proc.devRef .tc main_arg9) := by
  dsimp only [hostOps3]
  after_results_simp
theorem h3_arg10 : StableHlo.after (hostOps3 (F := Ideal)) W (Proc.devRef .tc main_arg10) = W (Proc.devRef .tc main_arg10) := by
  dsimp only [hostOps3]
  after_results_simp
theorem h3_arg11 : StableHlo.after (hostOps3 (F := Ideal)) W (Proc.devRef .tc main_arg11) = W (Proc.devRef .tc main_arg11) := by
  dsimp only [hostOps3]
  after_results_simp
theorem h3_arg12 : StableHlo.after (hostOps3 (F := Ideal)) W (Proc.devRef .tc main_arg12) = W (Proc.devRef .tc main_arg12) := by
  dsimp only [hostOps3]
  after_results_simp

end Cert.Bridge.Host

end
-- ==== Proof.Host45.lean ====
/-
  The last two host stretches: before the recurrent cell, the old state as a matrix, the two gate weight matrices
  transposed, and the three bias vectors as rows; after it, the two results given their batched shapes.
-/
import proofs.«120230_j24111946400619_1_alg».proof.Proof.Gen.KernelIdeal.Launch
import proofs.«120230_j24111946400619_1_alg».proof.Proof.Gen.ReferenceIdeal.Read
import proofs.«120230_j24111946400619_1_alg».proof.Proof.Chain
import proofs.«120230_j24111946400619_1_alg».proof.Proof.LibVectorAsMatrix
import Idealize.ShloMosaic.Lib.StableHlo.Run
import Idealize.ShloMosaic.PureOps.Ideal

set_option maxRecDepth 16384

noncomputable section

namespace Cert.Bridge.Host

open Cert.KernelIdeal Cert.KernelIdeal.Gen
open Idealize.ShloMosaic Idealize.ShloMosaic.TcCoe Idealize.SL.Sem Idealize.ShloMosaic.StableHlo

variable (W : Valuation τ sig (Elt Ideal))

theorem h4_v78 : StableHlo.after (hostOps4 (F := Ideal)) W (Proc.devRef .tc main_v78)
    = Cert.ReferenceIdeal.Read.val_main_v89 (F := Ideal) (W (Proc.devRef .tc main_arg2)) := by
  dsimp only [hostOps4]
  after_results_simp
  rfl
theorem h4_v79 : StableHlo.after (hostOps4 (F := Ideal)) W (Proc.devRef .tc main_v79)
    = Cert.ReferenceIdeal.Read.val_main_v90 (F := Ideal) (W (Proc.devRef .tc main_arg7)) := by
  dsimp only [hostOps4]
  after_results_simp
  rfl
theorem h4_v80 : StableHlo.after (hostOps4 (F := Ideal)) W (Proc.devRef .tc main_v80)
    = Cert.ReferenceIdeal.Read.val_main_v95 (F := Ideal) (W (Proc.devRef .tc main_arg8)) := by
  dsimp only [hostOps4]
  after_results_simp
  rfl
theorem h4_v81 : StableHlo.after (hostOps4 (F := Ideal)) W (Proc.devRef .tc main_v81)
    = Cert.ReferenceIdeal.Read.val_main_v92 (F := Ideal) (W (Proc.devRef .tc main_arg9)) := by
  dsimp only [hostOps4]
  after_results_simp
  exact Cert.Lib.VectorAsMatrix.row_eq _ _ _
theorem h4_v82 : StableHlo.after (hostOps4 (F := Ideal)) W (Proc.devRef .tc main_v82)
    = Cert.ReferenceIdeal.Read.val_main_v97 (F := Ideal) (W (Proc.devRef .tc main_arg10)) := by
  dsimp only [hostOps4]
  after_results_simp
  exact Cert.Lib.VectorAsMatrix.row_eq _ _ _
theorem h4_v83 : StableHlo.after (hostOps4 (F := Ideal)) W (Proc.devRef .tc main_v83)
    = Cert.ReferenceIdeal.Read.val_main_v129 (F := Ideal) (W (Proc.devRef .tc main_arg12)) := by
  dsimp only [hostOps4]
  after_results_simp
  exact Cert.Lib.VectorAsMatrix.row_eq _ _ _
theorem h4_v77 : StableHlo.after (hostOps4 (F := Ideal)) W (Proc.devRef .tc main_v77) = W (Proc.devRef .tc main_v77) := by
  dsimp only [hostOps4]
  after_results_simp
theorem h4_arg11 : StableHlo.after (hostOps4 (F := Ideal)) W (Proc.devRef .tc main_arg11) = W (Proc.devRef .tc main_arg11) := by
  dsimp only [hostOps4]
  after_results_simp
theorem h5_v85 : StableHlo.after (hostOps5 (F := Ideal)) W (Proc.devRef .tc main_v85)
    = shapeCast Cert.ReferenceIdeal.S4x50000x5 (W (Proc.devRef .tc main_v84_0)) Cert.ReferenceIdeal.Gen.shapeCasts_S200000x5_S4x50000x5 := by
  dsimp only [hostOps5]
  after_results_simp
  rfl
theorem h5_v86 : StableHlo.after (hostOps5 (F := Ideal)) W (Proc.devRef .tc main_v86)
    = shapeCast Cert.ReferenceIdeal.S4x50000x64 (W (Proc.devRef .tc main_v84_1)) Cert.ReferenceIdeal.Gen.shapeCasts_S200000x64_S4x50000x64 := by
  dsimp only [hostOps5]
  after_results_simp
  rfl

end Cert.Bridge.Host

end
-- ==== Proof.KernelEntry.lean ====
/-
  The type of "what the TensorCore's buffers hold when a region is entered", at exact arithmetic: the parameter
  each region's proof data are stated at.
-/
import proofs.«120230_j24111946400619_1_alg».proof.KernelIdeal
import Idealize.ShloMosaic.PureOps.Ideal

noncomputable section

namespace Cert.Bridge

open Cert.KernelIdeal Idealize.ShloMosaic Idealize.ShloMosaic.TcCoe Idealize.SL.Sem

/-- The TensorCore's buffer contents when a region is entered. -/
abbrev Entry := (c : Dev nD) → (b : Ref sig .tc) → Buf (Elt Ideal) ((c : Thread nD τ).loc b)

end Cert.Bridge

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.Region0.lean ====
/-
  The first projection region. Its grid has 40 points; point t multiplies rows 5000 t … 5000 t + 4999 of the
  one-column node features by the [1, 64] weight row and writes the product back as the same rows of the
  result. The result array is therefore the whole product.
-/
import proofs.«120230_j24111946400619_1_alg».proof.Proof.Spec
import proofs.«120230_j24111946400619_1_alg».proof.Proof.KernelEntry
import proofs.«120230_j24111946400619_1_alg».proof.Proof.Gen.KernelIdeal.Frame
import proofs.«120230_j24111946400619_1_alg».proof.Proof.LibPlainDot
import proofs.«120230_j24111946400619_1_alg».proof.Proof.LibKeepdims
import proofs.«120230_j24111946400619_1_alg».proof.Proof.LibBroadcastInDim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.ShloMosaic.ValueIdx Idealize.SL.Sem

open scoped BigOperators

/-- The region's payload read at an entry: the one-term sum of the products. -/
theorem pay0_apply (x0 : Vec Ideal S5000x1 .f32) (x1 : Vec Ideal S1x64 .f32) (p : Fin 5000) (q : Fin 64) :
    k0_pay1 x0 x1 (ix2 p q) = ∑ k : Fin 1, x0 (ix2 p k) * x1 (ix2 k q) := by
  unfold k0_pay1
  rw [shapeCast_self]
  exact Cert.Lib.PlainDot.matmul_plain_zero_apply (M := 5000) (K := 1) (N := 64) none
    (truncf .bf16 x0 bitsLt_bf16_f32) (truncf .bf16 x1 bitsLt_bf16_f32) p q

/-- The reference's product read at an entry. -/
theorem proj1_apply (X : FVec Ideal S200000x1 .f32) (W : FVec Ideal S1x64 .f32) (r : Fin 200000) (q : Fin 64) :
    proj1 (F := Ideal) X W (ix2 r q) = ∑ k : Fin 1, X (ix2 r k) * W (ix2 k q) := by
  unfold proj1
  exact Cert.Lib.PlainDot.dotGeneral_plain_apply (M := 200000) (K := 1) (N := 64) none .single X W r q

theorem zeroOff0 : (![0, 0] : Fin 2 → Nat) = fun _ => 0 := funext fun a => by fin_cases a <;> rfl

/-- The printed index maps over the grid: the feature and result blocks move with the point along the rows,
    the weight block stays. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (p, k) of the feature block at point t is entry (5000 t + p, k) of the features. -/
theorem emb0_0 (t : Fin cfg0.N) (p : Fin 5000) (k : Fin 1) (r : Fin 200000) (hr : r.val = t.val * 5000 + p.val) :
    ((cfg0.win 0).blk t).view.emb (ix2 p k) = (ix2 r k : S200000x1.Idx) := by
  obtain ⟨e0, e1, -, -, -, -⟩ := idx0 t
  funext a; apply Fin.ext
  match a with
  | ⟨0, _⟩ => show win0_0.index t (0 : Fin 2) * 5000 + 1 * p.val = r.val; omega
  | ⟨1, _⟩ => show win0_0.index t (1 : Fin 2) * 1 + 1 * k.val = k.val; omega

/-- The weight block at every point is the whole weight row. -/
theorem emb0_1 (t : Fin cfg0.N) (k : Fin 1) (q : Fin 64) :
    ((cfg0.win 1).blk t).view.emb (ix2 k q) = (ix2 k q : S1x64.Idx) := by
  obtain ⟨-, -, e2, e3, -, -⟩ := idx0 t
  funext a; apply Fin.ext
  match a with
  | ⟨0, _⟩ => show win0_1.index t (0 : Fin 2) * 1 + 1 * k.val = k.val; omega
  | ⟨1, _⟩ => show win0_1.index t (1 : Fin 2) * 64 + 1 * q.val = q.val; omega

/-- Entry (p, q) of the result block at point t is entry (5000 t + p, q) of the result. -/
theorem emb0_2 (t : Fin cfg0.N) (p : Fin 5000) (q : Fin 64) (r : Fin 200000) (hr : r.val = t.val * 5000 + p.val) :
    ((cfg0.win 2).blk t).view.emb (ix2 p q) = (ix2 r q : S200000x64.Idx) := by
  obtain ⟨-, -, -, -, e4, e5⟩ := idx0 t
  funext a; apply Fin.ext
  match a with
  | ⟨0, _⟩ => show win0_2.index t (0 : Fin 2) * 5000 + 1 * p.val = r.val; omega
  | ⟨1, _⟩ => show win0_2.index t (1 : Fin 2) * 64 + 1 * q.val = q.val; omega

/-- The feature block at point t, read at (p, k), is the features' entry (5000 t + p, k). -/
theorem blk0_0_apply (V : Entry) (c : Dev nD) (t : Fin cfg0.N) (p : Fin 5000) (k : Fin 1) (r : Fin 200000)
    (hr : r.val = t.val * 5000 + p.val) :
    iblk0 (F := Ideal) V c 0 t (ix2 p k) = V c main_v11 (ix2 r k) := by
  show V c main_v11 (((cfg0.win 0).blk t).view.emb (ix2 p k)) = _
  rw [emb0_0 t p k r hr]

/-- The weight block at point t, read at (k, q), is the weights' entry (k, q). -/
theorem blk0_1_apply (V : Entry) (c : Dev nD) (t : Fin cfg0.N) (k : Fin 1) (q : Fin 64) :
    iblk0 (F := Ideal) V c 1 t (ix2 k q) = V c main_arg3 (ix2 k q) := by
  show V c main_arg3 (((cfg0.win 1).blk t).view.emb (ix2 k q)) = _
  rw [emb0_1 t k q]

/-- What point t leaves at entry (p, q) of its result block is the product's entry (5000 t + p, q). -/
theorem flushed0_at (V : Entry) (c : Dev nD) (t : Fin cfg0.N) (p : Fin 5000) (q : Fin 64) :
    k0_pay1 (iblk0 (F := Ideal) V c 0 t) (iblk0 (F := Ideal) V c 1 t) (ix2 p q)
      = proj1 (F := Ideal) (V c main_v11) (V c main_arg3) (((cfg0.win 2).blk t).view.emb (ix2 p q)) := by
  have ht : t.val < 40 := lt_of_lt_of_eq t.isLt N_0
  have hr : t.val * 5000 + p.val < 200000 := by have := p.isLt; omega
  refine (pay0_apply (iblk0 (F := Ideal) V c 0 t) (iblk0 (F := Ideal) V c 1 t) p q).trans ?_
  rw [emb0_2 t p q ⟨t.val * 5000 + p.val, hr⟩ rfl]
  refine Eq.trans ?_ (proj1_apply (V c main_v11) (V c main_arg3) ⟨t.val * 5000 + p.val, hr⟩ q).symm
  refine Finset.sum_congr rfl fun k _ => ?_
  rw [blk0_0_apply V c t p k ⟨t.val * 5000 + p.val, hr⟩ rfl, blk0_1_apply V c t k q]

theorem flushed0 (V : Entry) (c : Dev nD) (t : Fin cfg0.N) :
    (dat0 (F := Ideal) V c).flushed 2 t
      = ((cfg0.win 2).blk t).view.read (Elt Ideal) (proj1 (F := Ideal) (V c main_v11) (V c main_arg3)) := by
  show (cfg0.win 2).cut (grid0.coords t) ((dat0 (F := Ideal) V c).after 2 t) = _
  rw [after0_2]
  unfold out0_2
  rw [View.canon_unit_zero zeroOff0]
  simp only [View.ld_unit_zero (S := S5000x1) zeroOff0, View.ld_unit_zero (S := S1x64) zeroOff0]
  funext j
  obtain ⟨p, q, rfl⟩ : ∃ (p : Fin 5000) (q : Fin 64), j = ix2 p q := ⟨j 0, j 1, eq_ix2 j⟩
  exact flushed0_at V c t p q

/-- An entry of the result is in point t's block iff each coordinate is in the block's range on its axis. -/
theorem mem_blk0 (t : Fin cfg0.N) (i : S200000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v12).slice (win0_2.rect t)).set ↔ _
  rw [View.set_slice_whole, Rect.mem_set_unit]
  exact Iff.rfl

/-- Row r of the result is in the block of point r / 5000. -/
theorem cover0 (i : S200000x64.Idx) :
    ∃ t : Fin cfg0.N, (cfg0.win 2).flush t = true ∧ i ∈ ((cfg0.win 2).blk t).view.set := by
  have hi0 : (i 0).val < 200000 := (i 0).isLt
  have hi1 : (i 1).val < 64 := (i 1).isLt
  have hN : cfg0.N = 40 := N_0
  have hlt : (i 0).val / 5000 < cfg0.N := by rw [hN]; omega
  refine ⟨⟨(i 0).val / 5000, hlt⟩, flush0_2 _, ?_⟩
  obtain ⟨-, -, -, -, e4, e5⟩ := idx0 ⟨(i 0).val / 5000, hlt⟩
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    rw [e5]
    omega

theorem region0_value (V : Entry) (c : Dev nD) :
    (dat0 (F := Ideal) V c).arrAt 2 cfg0.N = proj1 (F := Ideal) (V c main_v11) (V c main_arg3) :=
  (dat0 (F := Ideal) V c).arrAt_eq_of_cover 2 (proj1 (F := Ideal) (V c main_v11) (V c main_arg3))
    (fun t _ => flushed0 V c t) cover0

end Cert.Bridge

end
-- ==== Proof.Region1.lean ====
/-
  The first layer's combine region. Its grid has 40 points; point t computes max (agg + d * xw + b) 0 on rows
  5000 t … 5000 t + 4999 and writes them back as the same rows of the result.
-/
import proofs.«120230_j24111946400619_1_alg».proof.Proof.Spec
import proofs.«120230_j24111946400619_1_alg».proof.Proof.KernelEntry
import proofs.«120230_j24111946400619_1_alg».proof.Proof.Gen.KernelIdeal.Frame
import proofs.«120230_j24111946400619_1_alg».proof.Proof.LibPlainDot
import proofs.«120230_j24111946400619_1_alg».proof.Proof.LibKeepdims
import proofs.«120230_j24111946400619_1_alg».proof.Proof.LibBroadcastInDim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.ShloMosaic.ValueIdx Idealize.SL.Sem

/-! ## Both sides read at an index -/

/-- The origin of a two-axis rectangle, as a function. -/
theorem origin_zero1 : (![0, 0] : Fin 2 → Nat) = fun _ => 0 := funext fun a => by fin_cases a <;> rfl

/-- The body's payload at row p, feature q of its block: max (agg + d * xw + b) 0, the degree column read at
    (p, 0) and the bias row at (0, q). -/
theorem pay_apply1 (agg : FVec Ideal S5000x64 .f32) (d : FVec Ideal S5000x1 .f32) (xw : FVec Ideal S5000x64 .f32)
    (b : FVec Ideal S1x64 .f32) (p : Fin 5000) (q : Fin 64) :
    k1_pay1 (F := Ideal) agg d xw b (ix2 p q)
      = max (agg (ix2 p q) + d (ix2 p (0 : Fin 1)) * xw (ix2 p q) + b (ix2 (0 : Fin 1) q))
          (Ideal.ofBits .f32 0x00000000#32) := by
  unfold k1_pay1
  rw [maximumf_apply, addf_apply, addf_apply, mulf_apply, broadcast_apply]
  simp only [shapeCast_self]
  rw [Cert.Lib.Keepdims.broadcastTo_a1_ab_apply, broadcastTo_1b_ab_apply]
  rfl

/-- The whole-array function at node r, feature q: the same expression of the arrays' entries. -/
theorem combine_apply1 (xw agg : FVec Ideal S200000x64 .f32) (d : FVec Ideal S200000x1 .f32) (b : FVec Ideal S1x64 .f32)
    (r : Fin 200000) (q : Fin 64) :
    combine (F := Ideal) xw agg d b (ix2 r q)
      = max (agg (ix2 r q) + d (ix2 r (0 : Fin 1)) * xw (ix2 r q) + b (ix2 (0 : Fin 1) q))
          (Ideal.ofBits .f32 0x00000000#32) := by
  unfold combine
  rw [maximumf_apply, addf_apply, addf_apply, mulf_apply, Cert.Lib.BroadcastInDim.col_lanes_apply,
    Cert.Lib.BroadcastInDim.row_rows_apply, Cert.Lib.BroadcastInDim.scalar_apply, constant_apply]

/-! ## From blocks to the array -/

/-- The printed index maps, decided over the 40 grid points: the three row-blocked inputs and the output sit at
    block (t, 0), the bias row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block of the result is some point's. -/
theorem idx_onto1 : ∀ q0 : Fin 40, ∃ t : Fin cfg1.N, win1_4.index t = ![q0.val, 0] :=
  (by decide +kernel : ∀ q0 : Fin 40, ∃ t : Fin grid1.N, win1_4.index t = ![q0.val, 0])

/-- What point t writes back is block t of the whole-array function of the arrays as the region finds them. -/
theorem flushed_eq1 (V : Entry) (c : Dev nD) (t : Fin cfg1.N) :
    (dat1 (F := Ideal) V c).flushed 4 t
      = ((cfg1.win 4).blk t).view.read (Elt Ideal)
          (combine (F := Ideal) (V c main_v12) (V c main_v41) (V c main_v43) (V c main_v42)) := by
  show (cfg1.win 4).cut (grid1.coords t) ((dat1 V c).after 4 t) = _
  rw [after1_4]
  unfold out1_4
  rw [View.canon_unit_zero origin_zero1]
  simp only [View.ld_unit_zero (S := S5000x64) origin_zero1, View.ld_unit_zero (S := S5000x1) origin_zero1,
    View.ld_unit_zero (S := S1x64) origin_zero1]
  obtain ⟨e00, e01, e10, e11, e20, e21, e30, e31, e40, e41⟩ := idx_facts1 t
  funext j
  obtain ⟨p, q, rfl⟩ : ∃ (p : Fin 5000) (q : Fin 64), j = ix2 p q := ⟨j 0, j 1, eq_ix2 j⟩
  have ht : t.val < 40 := lt_of_lt_of_eq t.isLt N_1
  have hp : p.val < 5000 := p.isLt
  have hq : q.val < 64 := q.isLt
  have hemb : ((cfg1.win 4).blk t).view.emb (ix2 p q)
      = ix2 (⟨t.val * 5000 + p.val, by omega⟩ : Fin 200000) q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  have h0 : iblk1 V c 0 t (ix2 p q) = V c main_v12 (ix2 (⟨t.val * 5000 + p.val, by omega⟩ : Fin 200000) q) := by
    show V c main_v12 (((cfg1.win 0).blk t).view.emb (ix2 p q)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : iblk1 V c 1 t (ix2 p q) = V c main_v41 (ix2 (⟨t.val * 5000 + p.val, by omega⟩ : Fin 200000) q) := by
    show V c main_v41 (((cfg1.win 1).blk t).view.emb (ix2 p q)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * q.val = q.val; omega
  have h2 : iblk1 V c 2 t (ix2 p (0 : Fin 1))
      = V c main_v43 (ix2 (⟨t.val * 5000 + p.val, by omega⟩ : Fin 200000) (0 : Fin 1)) := by
    show V c main_v43 (((cfg1.win 2).blk t).view.emb (ix2 p (0 : Fin 1))) = _
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : iblk1 V c 3 t (ix2 (0 : Fin 1) q) = V c main_v42 (ix2 (0 : Fin 1) q) := by
    show V c main_v42 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  show k1_pay1 (F := Ideal) (iblk1 V c 1 t) (iblk1 V c 2 t) (iblk1 V c 0 t) (iblk1 V c 3 t) (ix2 p q)
      = combine (F := Ideal) (V c main_v12) (V c main_v41) (V c main_v43) (V c main_v42)
          (((cfg1.win 4).blk t).view.emb (ix2 p q))
  refine (pay_apply1 _ _ _ _ p q).trans ?_
  rw [hemb]
  refine Eq.symm ((combine_apply1 _ _ _ _ _ q).trans ?_)
  rw [h0, h1, h2, h3]

/-- An index of the array is in point t's block iff each coordinate is in the block's range on its axis. -/
theorem mem_blk1 (t : Fin cfg1.N) (i : S200000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v44).slice (win1_4.rect t)).set ↔ _
  rw [View.set_slice_whole, Rect.mem_set_unit]
  exact Iff.rfl

/-- The 40 blocks of 5000 rows cover the 200000 rows: row r is in block r / 5000. -/
theorem cover1 (i : S200000x64.Idx) :
    ∃ t : Fin cfg1.N, (cfg1.win 4).flush t = true ∧ i ∈ ((cfg1.win 4).blk t).view.set := by
  have hi0 : (i 0).val < 200000 := (i 0).isLt
  have hi1 : (i 1).val < 64 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

theorem region1_value (V : Entry) (c : Dev nD) :
    (dat1 (F := Ideal) V c).arrAt 4 cfg1.N
      = combine (F := Ideal) (V c main_v12) (V c main_v41) (V c main_v43) (V c main_v42) :=
  (dat1 (F := Ideal) V c).arrAt_eq_of_cover 4
    (combine (F := Ideal) (V c main_v12) (V c main_v41) (V c main_v43) (V c main_v42))
    (fun t _ => flushed_eq1 V c t) cover1

end Cert.Bridge

end
-- ==== Proof.Region2.lean ====
/-
  The second projection region. Its grid has 40 points; point t multiplies rows 5000 t … 5000 t + 4999 of the
  [200000, 64] node features by the [64, 64] weight matrix and writes the product back as the same rows of
  the result. The result array is therefore the whole product.
-/
import proofs.«120230_j24111946400619_1_alg».proof.Proof.Spec
import proofs.«120230_j24111946400619_1_alg».proof.Proof.KernelEntry
import proofs.«120230_j24111946400619_1_alg».proof.Proof.Gen.KernelIdeal.Frame
import proofs.«120230_j24111946400619_1_alg».proof.Proof.LibPlainDot
import proofs.«120230_j24111946400619_1_alg».proof.Proof.LibKeepdims
import proofs.«120230_j24111946400619_1_alg».proof.Proof.LibBroadcastInDim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.ShloMosaic.ValueIdx Idealize.SL.Sem

open scoped BigOperators

/-- The region's payload read at an entry: the sum over the 64 shared coordinates of the products. -/
theorem pay2_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  rw [shapeCast_self]
  exact Cert.Lib.PlainDot.matmul_plain_zero_apply (M := 5000) (K := 64) (N := 64) none
    (truncf .bf16 x0 bitsLt_bf16_f32) (truncf .bf16 x1 bitsLt_bf16_f32) p q

/-- The reference's product read at an entry. -/
theorem proj2_apply (X : FVec Ideal S200000x64 .f32) (W : FVec Ideal S64x64 .f32) (r : Fin 200000) (q : Fin 64) :
    proj2 (F := Ideal) X W (ix2 r q) = ∑ k : Fin 64, X (ix2 r k) * W (ix2 k q) := by
  unfold proj2
  exact Cert.Lib.PlainDot.dotGeneral_plain_apply (M := 200000) (K := 64) (N := 64) none .single X W r q

theorem zeroOff2 : (![0, 0] : Fin 2 → Nat) = fun _ => 0 := funext fun a => by fin_cases a <;> rfl

/-- The printed index maps over the grid: the feature and result blocks move with the point along the rows,
    the weight block stays. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Entry (p, k) of the feature block at point t is entry (5000 t + p, k) of the features. -/
theorem emb2_0 (t : Fin cfg2.N) (p : Fin 5000) (k : Fin 64) (r : Fin 200000) (hr : r.val = t.val * 5000 + p.val) :
    ((cfg2.win 0).blk t).view.emb (ix2 p k) = (ix2 r k : S200000x64.Idx) := by
  obtain ⟨e0, e1, -, -, -, -⟩ := idx2 t
  funext a; apply Fin.ext
  match a with
  | ⟨0, _⟩ => show win2_0.index t (0 : Fin 2) * 5000 + 1 * p.val = r.val; omega
  | ⟨1, _⟩ => show win2_0.index t (1 : Fin 2) * 64 + 1 * k.val = k.val; omega

/-- The weight block at every point is the whole weight matrix. -/
theorem emb2_1 (t : Fin cfg2.N) (k : Fin 64) (q : Fin 64) :
    ((cfg2.win 1).blk t).view.emb (ix2 k q) = (ix2 k q : S64x64.Idx) := by
  obtain ⟨-, -, e2, e3, -, -⟩ := idx2 t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- Entry (p, q) of the result block at point t is entry (5000 t + p, q) of the result. -/
theorem emb2_2 (t : Fin cfg2.N) (p : Fin 5000) (q : Fin 64) (r : Fin 200000) (hr : r.val = t.val * 5000 + p.val) :
    ((cfg2.win 2).blk t).view.emb (ix2 p q) = (ix2 r q : S200000x64.Idx) := by
  obtain ⟨-, -, -, -, e4, e5⟩ := idx2 t
  funext a; apply Fin.ext
  match a with
  | ⟨0, _⟩ => show win2_2.index t (0 : Fin 2) * 5000 + 1 * p.val = r.val; omega
  | ⟨1, _⟩ => show win2_2.index t (1 : Fin 2) * 64 + 1 * q.val = q.val; omega

/-- The feature block at point t, read at (p, k), is the features' entry (5000 t + p, k). -/
theorem blk2_0_apply (V : Entry) (c : Dev nD) (t : Fin cfg2.N) (p : Fin 5000) (k : Fin 64) (r : Fin 200000)
    (hr : r.val = t.val * 5000 + p.val) :
    iblk2 (F := Ideal) V c 0 t (ix2 p k) = V c main_v44 (ix2 r k) := by
  show V c main_v44 (((cfg2.win 0).blk t).view.emb (ix2 p k)) = _
  rw [emb2_0 t p k r hr]

/-- The weight block at point t, read at (k, q), is the weights' entry (k, q). -/
theorem blk2_1_apply (V : Entry) (c : Dev nD) (t : Fin cfg2.N) (k : Fin 64) (q : Fin 64) :
    iblk2 (F := Ideal) V c 1 t (ix2 k q) = V c main_arg5 (ix2 k q) := by
  show V c main_arg5 (((cfg2.win 1).blk t).view.emb (ix2 k q)) = _
  rw [emb2_1 t k q]

/-- What point t leaves at entry (p, q) of its result block is the product's entry (5000 t + p, q). -/
theorem flushed2_at (V : Entry) (c : Dev nD) (t : Fin cfg2.N) (p : Fin 5000) (q : Fin 64) :
    k2_pay1 (iblk2 (F := Ideal) V c 0 t) (iblk2 (F := Ideal) V c 1 t) (ix2 p q)
      = proj2 (F := Ideal) (V c main_v44) (V c main_arg5) (((cfg2.win 2).blk t).view.emb (ix2 p q)) := by
  have ht : t.val < 40 := lt_of_lt_of_eq t.isLt N_2
  have hr : t.val * 5000 + p.val < 200000 := by have := p.isLt; omega
  refine (pay2_apply (iblk2 (F := Ideal) V c 0 t) (iblk2 (F := Ideal) V c 1 t) p q).trans ?_
  rw [emb2_2 t p q ⟨t.val * 5000 + p.val, hr⟩ rfl]
  refine Eq.trans ?_ (proj2_apply (V c main_v44) (V c main_arg5) ⟨t.val * 5000 + p.val, hr⟩ q).symm
  refine Finset.sum_congr rfl fun k _ => ?_
  rw [blk2_0_apply V c t p k ⟨t.val * 5000 + p.val, hr⟩ rfl, blk2_1_apply V c t k q]

theorem flushed2 (V : Entry) (c : Dev nD) (t : Fin cfg2.N) :
    (dat2 (F := Ideal) V c).flushed 2 t
      = ((cfg2.win 2).blk t).view.read (Elt Ideal) (proj2 (F := Ideal) (V c main_v44) (V c main_arg5)) := by
  show (cfg2.win 2).cut (grid2.coords t) ((dat2 (F := Ideal) V c).after 2 t) = _
  rw [after2_2]
  unfold out2_2
  rw [View.canon_unit_zero zeroOff2]
  simp only [View.ld_unit_zero (S := S5000x64) zeroOff2, View.ld_unit_zero (S := S64x64) zeroOff2]
  funext j
  obtain ⟨p, q, rfl⟩ : ∃ (p : Fin 5000) (q : Fin 64), j = ix2 p q := ⟨j 0, j 1, eq_ix2 j⟩
  exact flushed2_at V c t p q

/-- An entry of the result is in point t's block iff each coordinate is in the block's range on its axis. -/
theorem mem_blk2 (t : Fin cfg2.N) (i : S200000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v45).slice (win2_2.rect t)).set ↔ _
  rw [View.set_slice_whole, Rect.mem_set_unit]
  exact Iff.rfl

/-- Row r of the result is in the block of point r / 5000. -/
theorem cover2 (i : S200000x64.Idx) :
    ∃ t : Fin cfg2.N, (cfg2.win 2).flush t = true ∧ i ∈ ((cfg2.win 2).blk t).view.set := by
  have hi0 : (i 0).val < 200000 := (i 0).isLt
  have hi1 : (i 1).val < 64 := (i 1).isLt
  have hN : cfg2.N = 40 := N_2
  have hlt : (i 0).val / 5000 < cfg2.N := by rw [hN]; omega
  refine ⟨⟨(i 0).val / 5000, hlt⟩, flush2_2 _, ?_⟩
  obtain ⟨-, -, -, -, e4, e5⟩ := idx2 ⟨(i 0).val / 5000, hlt⟩
  rw [mem_blk2]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, hlt⟩ (1 : Fin 2) * 64 ≤ (i 1).val
      ∧ (i 1).val < win2_2.index ⟨(i 0).val / 5000, hlt⟩ (1 : Fin 2) * 64 + 64
    rw [e5]
    omega

theorem region2_value (V : Entry) (c : Dev nD) :
    (dat2 (F := Ideal) V c).arrAt 2 cfg2.N = proj2 (F := Ideal) (V c main_v44) (V c main_arg5) :=
  (dat2 (F := Ideal) V c).arrAt_eq_of_cover 2 (proj2 (F := Ideal) (V c main_v44) (V c main_arg5))
    (fun t _ => flushed2 V c t) cover2

end Cert.Bridge

end
-- ==== Proof.Region3.lean ====
/-
  The second layer's combine region. Its grid has 40 points; point t computes max (agg + d * xw + b) 0 on rows
  5000 t … 5000 t + 4999 and writes them back as the same rows of the result.
-/
import proofs.«120230_j24111946400619_1_alg».proof.Proof.Spec
import proofs.«120230_j24111946400619_1_alg».proof.Proof.KernelEntry
import proofs.«120230_j24111946400619_1_alg».proof.Proof.Gen.KernelIdeal.Frame
import proofs.«120230_j24111946400619_1_alg».proof.Proof.LibPlainDot
import proofs.«120230_j24111946400619_1_alg».proof.Proof.LibKeepdims
import proofs.«120230_j24111946400619_1_alg».proof.Proof.LibBroadcastInDim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.ShloMosaic.ValueIdx Idealize.SL.Sem

/-! ## Both sides read at an index -/

/-- The origin of a two-axis rectangle, as a function. -/
theorem origin_zero3 : (![0, 0] : Fin 2 → Nat) = fun _ => 0 := funext fun a => by fin_cases a <;> rfl

/-- The body's payload at row p, feature q of its block: max (agg + d * xw + b) 0, the degree column read at
    (p, 0) and the bias row at (0, q). -/
theorem pay_apply3 (agg : FVec Ideal S5000x64 .f32) (d : FVec Ideal S5000x1 .f32) (xw : FVec Ideal S5000x64 .f32)
    (b : FVec Ideal S1x64 .f32) (p : Fin 5000) (q : Fin 64) :
    k3_pay1 (F := Ideal) agg d xw b (ix2 p q)
      = max (agg (ix2 p q) + d (ix2 p (0 : Fin 1)) * xw (ix2 p q) + b (ix2 (0 : Fin 1) q))
          (Ideal.ofBits .f32 0x00000000#32) := by
  unfold k3_pay1
  rw [maximumf_apply, addf_apply, addf_apply, mulf_apply, broadcast_apply]
  simp only [shapeCast_self]
  rw [Cert.Lib.Keepdims.broadcastTo_a1_ab_apply, broadcastTo_1b_ab_apply]
  rfl

/-- The whole-array function at node r, feature q: the same expression of the arrays' entries. -/
theorem combine_apply3 (xw agg : FVec Ideal S200000x64 .f32) (d : FVec Ideal S200000x1 .f32) (b : FVec Ideal S1x64 .f32)
    (r : Fin 200000) (q : Fin 64) :
    combine (F := Ideal) xw agg d b (ix2 r q)
      = max (agg (ix2 r q) + d (ix2 r (0 : Fin 1)) * xw (ix2 r q) + b (ix2 (0 : Fin 1) q))
          (Ideal.ofBits .f32 0x00000000#32) := by
  unfold combine
  rw [maximumf_apply, addf_apply, addf_apply, mulf_apply, Cert.Lib.BroadcastInDim.col_lanes_apply,
    Cert.Lib.BroadcastInDim.row_rows_apply, Cert.Lib.BroadcastInDim.scalar_apply, constant_apply]

/-! ## From blocks to the array -/

/-- The printed index maps, decided over the 40 grid points: the three row-blocked inputs and the output sit at
    block (t, 0), the bias row at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every row block of the result is some point's. -/
theorem idx_onto3 : ∀ q0 : Fin 40, ∃ t : Fin cfg3.N, win3_4.index t = ![q0.val, 0] :=
  (by decide +kernel : ∀ q0 : Fin 40, ∃ t : Fin grid3.N, win3_4.index t = ![q0.val, 0])

/-- What point t writes back is block t of the whole-array function of the arrays as the region finds them. -/
theorem flushed_eq3 (V : Entry) (c : Dev nD) (t : Fin cfg3.N) :
    (dat3 (F := Ideal) V c).flushed 4 t
      = ((cfg3.win 4).blk t).view.read (Elt Ideal)
          (combine (F := Ideal) (V c main_v45) (V c main_v74) (V c main_v76) (V c main_v75)) := by
  show (cfg3.win 4).cut (grid3.coords t) ((dat3 V c).after 4 t) = _
  rw [after3_4]
  unfold out3_4
  rw [View.canon_unit_zero origin_zero3]
  simp only [View.ld_unit_zero (S := S5000x64) origin_zero3, View.ld_unit_zero (S := S5000x1) origin_zero3,
    View.ld_unit_zero (S := S1x64) origin_zero3]
  obtain ⟨e00, e01, e10, e11, e20, e21, e30, e31, e40, e41⟩ := idx_facts3 t
  funext j
  obtain ⟨p, q, rfl⟩ : ∃ (p : Fin 5000) (q : Fin 64), j = ix2 p q := ⟨j 0, j 1, eq_ix2 j⟩
  have ht : t.val < 40 := lt_of_lt_of_eq t.isLt N_3
  have hp : p.val < 5000 := p.isLt
  have hq : q.val < 64 := q.isLt
  have hemb : ((cfg3.win 4).blk t).view.emb (ix2 p q)
      = ix2 (⟨t.val * 5000 + p.val, by omega⟩ : Fin 200000) q := by
    funext a; apply Fin.ext
    match a with
    | ⟨0, _⟩ => show win3_4.index t (0 : Fin 2) * 5000 + 1 * p.val = t.val * 5000 + p.val; omega
    | ⟨1, _⟩ => show win3_4.index t (1 : Fin 2) * 64 + 1 * q.val = q.val; omega
  have h0 : iblk3 V c 0 t (ix2 p q) = V c main_v45 (ix2 (⟨t.val * 5000 + p.val, by omega⟩ : Fin 200000) q) := by
    show V c main_v45 (((cfg3.win 0).blk t).view.emb (ix2 p q)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * q.val = q.val; omega
  have h1 : iblk3 V c 1 t (ix2 p q) = V c main_v74 (ix2 (⟨t.val * 5000 + p.val, by omega⟩ : Fin 200000) q) := by
    show V c main_v74 (((cfg3.win 1).blk t).view.emb (ix2 p q)) = _
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 64 + 1 * q.val = q.val; omega
  have h2 : iblk3 V c 2 t (ix2 p (0 : Fin 1))
      = V c main_v76 (ix2 (⟨t.val * 5000 + p.val, by omega⟩ : Fin 200000) (0 : Fin 1)) := by
    show V c main_v76 (((cfg3.win 2).blk t).view.emb (ix2 p (0 : Fin 1))) = _
    refine congrArg _ (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  have h3 : iblk3 V c 3 t (ix2 (0 : Fin 1) q) = V c main_v75 (ix2 (0 : Fin 1) q) := by
    show V c main_v75 (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  show k3_pay1 (F := Ideal) (iblk3 V c 1 t) (iblk3 V c 2 t) (iblk3 V c 0 t) (iblk3 V c 3 t) (ix2 p q)
      = combine (F := Ideal) (V c main_v45) (V c main_v74) (V c main_v76) (V c main_v75)
          (((cfg3.win 4).blk t).view.emb (ix2 p q))
  refine (pay_apply3 _ _ _ _ p q).trans ?_
  rw [hemb]
  refine Eq.symm ((combine_apply3 _ _ _ _ _ q).trans ?_)
  rw [h0, h1, h2, h3]

/-- An index of the array is in point t's block iff each coordinate is in the block's range on its axis. -/
theorem mem_blk3 (t : Fin cfg3.N) (i : S200000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v77).slice (win3_4.rect t)).set ↔ _
  rw [View.set_slice_whole, Rect.mem_set_unit]
  exact Iff.rfl

/-- The 40 blocks of 5000 rows cover the 200000 rows: row r is in block r / 5000. -/
theorem cover3 (i : S200000x64.Idx) :
    ∃ t : Fin cfg3.N, (cfg3.win 4).flush t = true ∧ i ∈ ((cfg3.win 4).blk t).view.set := by
  have hi0 : (i 0).val < 200000 := (i 0).isLt
  have hi1 : (i 1).val < 64 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

theorem region3_value (V : Entry) (c : Dev nD) :
    (dat3 (F := Ideal) V c).arrAt 4 cfg3.N
      = combine (F := Ideal) (V c main_v45) (V c main_v74) (V c main_v76) (V c main_v75) :=
  (dat3 (F := Ideal) V c).arrAt_eq_of_cover 4
    (combine (F := Ideal) (V c main_v45) (V c main_v74) (V c main_v76) (V c main_v75))
    (fun t _ => flushed_eq3 V c t) cover3

end Cert.Bridge

end
-- ==== Proof.Region4Head.lean ====
/-
  The linear head, entry by entry, on both sides: the whole-array head on a state, and the kernel body's head on its
  own block of 2000 new-state rows. Both are the row of the state times a column of the [64, 5] weight matrix plus
  the bias at that column.
-/
import proofs.«120230_j24111946400619_1_alg».proof.Proof.Spec
import proofs.«120230_j24111946400619_1_alg».proof.Proof.KernelEntry
import proofs.«120230_j24111946400619_1_alg».proof.Proof.Gen.KernelIdeal.Frame
import proofs.«120230_j24111946400619_1_alg».proof.Proof.LibPlainDot
import proofs.«120230_j24111946400619_1_alg».proof.Proof.LibKeepdims
import proofs.«120230_j24111946400619_1_alg».proof.Proof.LibBroadcastInDim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.ShloMosaic.ValueIdx Idealize.SL.Sem

open scoped BigOperators

/-- The whole-array head on a state, read at node `r` and output `j`. -/
theorem gruOut_apply (hnew : FVec Ideal S200000x64 .f32) (fcw : FVec Ideal S64x5 .f32) (fcb : FVec Ideal S1x5 .f32)
    (r : Fin 200000) (j : Fin 5) :
    gruOut (F := Ideal) hnew fcw fcb (ix2 r j)
      = (∑ k : Fin 64, hnew (ix2 r k) * fcw (ix2 k j)) + fcb (ix2 (0 : Fin 1) j) := by
  unfold gruOut
  rw [addf_apply]
  exact congrArg₂ (· + ·)
    (Cert.Lib.PlainDot.dotGeneral_plain_apply (M := 200000) (K := 64) (N := 5) none .single hnew fcw r j)
    (Cert.Lib.BroadcastInDim.row_rows_apply _ fcb r j)

/-- The kernel body's head on a block of 2000 new-state rows, read at row `p` of the block and output `j`. -/
theorem headBlock_apply (v41 : FVec Ideal S2000x64 .f32) (v43 : FVec Ideal S64x5 .f32) (v47 : FVec Ideal S1x5 .f32)
    (p : Fin 2000) (j : Fin 5) :
    k4_pay1 (F := Ideal) v41 v43 v47 (ix2 p j)
      = (∑ k : Fin 64, v41 (ix2 p k) * v43 (ix2 k j)) + v47 (ix2 (0 : Fin 1) j) := by
  unfold k4_pay1
  rw [addf_apply, shapeCast_self]
  exact congrArg₂ (· + ·)
    (Cert.Lib.PlainDot.matmul_plain_zero_apply (M := 2000) (K := 64) (N := 5) none
      (truncf .bf16 v41 bitsLt_bf16_f32) (truncf .bf16 v43 bitsLt_bf16_f32) p j)
    (broadcastTo_1b_ab_apply v47 broadcasts_S1x5_S2000x5 p j)

end Cert.Bridge

end
-- ==== Proof.Region4.lean ====
/-
  The recurrent cell and the linear head. The grid has 100 points; point t works on rows 2000 t … 2000 t + 1999:
  both gate products, the three gates, the new state, and the head applied to that new state.
-/
import proofs.«120230_j24111946400619_1_alg».proof.Proof.Spec
import proofs.«120230_j24111946400619_1_alg».proof.Proof.KernelEntry
import proofs.«120230_j24111946400619_1_alg».proof.Proof.Gen.KernelIdeal.Frame
import proofs.«120230_j24111946400619_1_alg».proof.Proof.LibPlainDot
import proofs.«120230_j24111946400619_1_alg».proof.Proof.LibKeepdims
import proofs.«120230_j24111946400619_1_alg».proof.Proof.LibBroadcastInDim
import proofs.«120230_j24111946400619_1_alg».proof.Proof.Region4Head
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open scoped BigOperators

/-! ## The cell, entry by entry -/

/-- One side's gate pre-activation at column `k` from a node's 64 features: the row times column `k` of the
    weight matrix, plus the bias at `k`. -/
def preAct (row : Fin 64 → EReal) (W : FVec Ideal S64x192 .f32) (b : FVec Ideal S1x192 .f32) (k : Fin 192) : EReal :=
  (∑ m : Fin 64, row m * W (ix2 m k)) + b (ix2 (0 : Fin 1) k)

/-- The new state of one node at feature `q`, from its two rows of pre-activations and its old state there:
    `(1 - z) * n + z * h` with `r`, `z` the logistic of the summed first and second groups and
    `n = tanh (gi₂ + r * gh₂)`. -/
def cellAt (gi gh : Fin 192 → EReal) (h : EReal) (q : Fin 64) : EReal :=
  (1 - Ideal.logistic (gi ⟨64 + q.val, by omega⟩ + gh ⟨64 + q.val, by omega⟩))
      * Ideal.tanh (gi ⟨128 + q.val, by omega⟩
          + Ideal.logistic (gi ⟨0 + q.val, by omega⟩ + gh ⟨0 + q.val, by omega⟩) * gh ⟨128 + q.val, by omega⟩)
    + Ideal.logistic (gi ⟨64 + q.val, by omega⟩ + gh ⟨64 + q.val, by omega⟩) * h

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The body's gate pre-activations of a block of 2000 nodes, read at node `p` and column `k`. -/
theorem blockGates_apply (x : FVec Ideal S2000x64 .f32) (w : FVec Ideal S64x192 .f32) (b : FVec Ideal S1x192 .f32)
    (p : Fin 2000) (k : Fin 192) :
    addf (matmul dot_S2000x64_S64x192_S2000x192_1_0_0_1_n_n none
          (truncf .bf16 (shapeCast S2000x64 x shapeCasts_S2000x64_S2000x64) bitsLt_bf16_f32)
          (truncf .bf16 (shapeCast S64x192 w shapeCasts_S64x192_S64x192) bitsLt_bf16_f32)
          (constant (F := Ideal) S2000x192 .f32 0x00000000#32))
        (broadcastTo S2000x192 (shapeCast S1x192 b shapeCasts_S1x192_S1x192) broadcasts_S1x192_S2000x192) (ix2 p k)
      = preAct (fun m => x (ix2 p m)) w b k := by
  rw [shapeCast_self, shapeCast_self, shapeCast_self, addf_apply]
  rw [show dot_S2000x64_S64x192_S2000x192_1_0_0_1_n_n = DotDims.plain 2000 64 192 from rfl]
  rw [broadcastTo_1b_ab_apply]
  refine congrArg (· + b (ix2 (0 : Fin 1) k)) ?_
  exact Cert.Lib.PlainDot.matmul_plain_zero_apply none _ _ p k

/-- A group of 64 columns cut from the 192 gate columns of a block, read at node `p` and feature `q`. -/
theorem blockSlice_apply (o : Nat) (ho : o + 64 ≤ 192) (X : FVec Ideal S2000x192 .f32)
    (h : S2000x192.Slices ![0, o] S2000x64) (p : Fin 2000) (q : Fin 64) :
    extractStridedSlice S2000x64 ![0, o] X h (ix2 p q) = X (ix2 p (⟨o + q.val, by omega⟩ : Fin 192)) :=
  slice2_axis1_apply o X h p q ⟨o + q.val, by omega⟩ rfl

/-- The bit pattern of the constant one, as an extended real. -/
theorem one_f32 : (FloatOps.ofBits .f32 0x3F800000#32 : Ideal .f32) = 1 := Ideal.ofBits_one_f32

/-- The body's new-state block, read at node `p` of the block and feature `q`. -/
theorem cellBlock_apply (x0 x1 : FVec Ideal S2000x64 .f32) (w0 w1 : FVec Ideal S64x192 .f32) (b0 b1 : FVec Ideal S1x192 .f32)
    (x35 : FVec Ideal S2000x64 .f32) (p : Fin 2000) (q : Fin 64) :
    k4_pay2 (F := Ideal) x0 x1 w0 w1 b0 b1 x35 (ix2 p q)
      = cellAt (preAct (fun m => x0 (ix2 p m)) w0 b0) (preAct (fun m => x1 (ix2 p m)) w1 b1) (x35 (ix2 p q)) q := by
  unfold k4_pay2
  simp only [addf_apply, mulf_apply, subf_apply, broadcast_apply, logistic_apply, tanh_apply]
  rw [blockSlice_apply 0 (by omega), blockSlice_apply 0 (by omega), blockSlice_apply 64 (by omega),
    blockSlice_apply 64 (by omega), blockSlice_apply 128 (by omega), blockSlice_apply 128 (by omega)]
  simp only [blockGates_apply]
  rw [shapeCast_self]
  show (FloatOps.ofBits .f32 0x3F800000#32 - _) * _ + _ = _
  rw [one_f32]
  rfl

/-! ## The same cell in the whole-array form -/

theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl
theorem hostTanh_apply {s : Shape} {φ : FTy} (a : FVec Ideal s φ) (i : s.Idx) : Host.tanh a i = Ideal.tanh (a i) := rfl

/-- The array of ones reads one everywhere. -/
theorem ones_apply (j : S200000x64.Idx) : ones (F := Ideal) j = 1 := by
  unfold ones
  rw [Cert.Lib.BroadcastInDim.scalar_apply]
  exact Ideal.ofBits_one_f32

/-- One side's gate pre-activations of all nodes, read at node `r` and column `k`. -/
theorem gates_apply (X : FVec Ideal S200000x64 .f32) (W : FVec Ideal S64x192 .f32) (b : FVec Ideal S1x192 .f32)
    (r : Fin 200000) (k : Fin 192) :
    gates (F := Ideal) X W b (ix2 r k) = preAct (fun m => X (ix2 r m)) W b k := by
  unfold gates
  rw [addf_apply]
  rw [show Cert.ReferenceIdeal.dot_S200000x64_S64x192_S200000x192_1_0_0_1_n_n = DotDims.plain 200000 64 192 from rfl]
  rw [Cert.Lib.BroadcastInDim.row_rows_apply]
  refine congrArg (· + b (ix2 (0 : Fin 1) k)) ?_
  exact Cert.Lib.PlainDot.dotGeneral_plain_apply none _ X W r k

/-- A group of 64 columns cut from the 192 gate columns of all nodes, read at node `r` and feature `q`. -/
theorem arraySlice_apply (o : Nat) (ho : o + 64 ≤ 192) (X : FVec Ideal ⟨2, ![200000, 192]⟩ .f32)
    (h : (⟨2, ![200000, 192]⟩ : Shape).Slices ![0, o] ⟨2, ![200000, 64]⟩) (r : Fin 200000) (q : Fin 64) :
    extractStridedSlice ⟨2, ![200000, 64]⟩ ![0, o] X h (ix2 r q) = X (ix2 r (⟨o + q.val, by omega⟩ : Fin 192)) :=
  slice2_axis1_apply o X h r q ⟨o + q.val, by omega⟩ rfl

/-- The whole-array cell, read at node `r` and feature `q`. -/
theorem gruHidden_apply (xf hf : FVec Ideal S200000x64 .f32) (wih whh : FVec Ideal S64x192 .f32)
    (bih bhh : FVec Ideal S1x192 .f32) (r : Fin 200000) (q : Fin 64) :
    gruHidden (F := Ideal) xf hf wih whh bih bhh (ix2 r q)
      = cellAt (preAct (fun m => xf (ix2 r m)) wih bih) (preAct (fun m => hf (ix2 r m)) whh bhh) (hf (ix2 r q)) q := by
  unfold gruHidden cell gateN gateR gateZ sigma
  simp only [addf_apply, mulf_apply, subf_apply, hostDivf_apply, hostExp_apply, hostNegf_apply, hostTanh_apply, ones_apply]
  rw [arraySlice_apply 0 (by omega), arraySlice_apply 0 (by omega), arraySlice_apply 64 (by omega),
    arraySlice_apply 64 (by omega), arraySlice_apply 128 (by omega), arraySlice_apply 128 (by omega)]
  simp only [gates_apply]
  rfl

/-! ## From blocks to the array -/

theorem zeroOff : (![0, 0] : Fin 2 → Nat) = fun _ => 0 := funext fun a => by fin_cases a <;> rfl

/-- The printed index maps over the 100 grid points: the four windows over node rows (both inputs, both outputs) are at
    block `t` of rows and block 0 of columns; the six weight and bias windows are at block 0 on both axes. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0 :=
  (by decide +kernel : ∀ t : Fin grid4.N, _)

/-- The node that row `p` of point `t`'s block is. -/
def rowOf (t : Fin cfg4.N) (p : Fin 2000) : Fin 200000 :=
  ⟨t.val * 2000 + p.val, by have h : t.val < 100 := lt_of_lt_of_eq t.isLt N_4; omega⟩

/-- Input window 0's block at point `t` holds the node features of rows `2000 t …`. -/
theorem iblk0_apply (V : Entry) (c : Dev nD) (t : Fin cfg4.N) (p : Fin 2000) (m : Fin 64) :
    iblk4 (F := Ideal) V c 0 t (ix2 p m) = V c main_v77 (ix2 (rowOf t p) m) := by
  obtain ⟨e0, e1, -⟩ := idx_facts4 t
  show V c main_v77 (((cfg4.win 0).blk t).view.emb (ix2 p m)) = _
  refine congrArg (V c main_v77) ?_
  funext a; apply Fin.ext
  match a with
  | ⟨0, _⟩ => show win4_0.index t (0 : Fin 2) * 2000 + 1 * p.val = t.val * 2000 + p.val; omega
  | ⟨1, _⟩ => show win4_0.index t (1 : Fin 2) * 64 + 1 * m.val = m.val; omega

/-- Input window 1's block at point `t` holds the old state of rows `2000 t …`. -/
theorem iblk1_apply (V : Entry) (c : Dev nD) (t : Fin cfg4.N) (p : Fin 2000) (m : Fin 64) :
    iblk4 (F := Ideal) V c 1 t (ix2 p m) = V c main_v78 (ix2 (rowOf t p) m) := by
  obtain ⟨-, -, e0, e1, -⟩ := idx_facts4 t
  show V c main_v78 (((cfg4.win 1).blk t).view.emb (ix2 p m)) = _
  refine congrArg (V c main_v78) ?_
  funext a; apply Fin.ext
  match a with
  | ⟨0, _⟩ => show win4_1.index t (0 : Fin 2) * 2000 + 1 * p.val = t.val * 2000 + p.val; omega
  | ⟨1, _⟩ => show win4_1.index t (1 : Fin 2) * 64 + 1 * m.val = m.val; omega

/-- The weight and bias windows' blocks are their whole arrays at every point. -/
theorem iblk2_eq (V : Entry) (c : Dev nD) (t : Fin cfg4.N) : iblk4 (F := Ideal) V c 2 t = V c main_v79 := by
  obtain ⟨-, -, -, -, e0, e1, -⟩ := idx_facts4 t
  funext y
  show V c main_v79 (((cfg4.win 2).blk t).view.emb y) = _
  refine congrArg (V c main_v79) ?_
  funext a; apply Fin.ext
  match a with
  | ⟨0, _⟩ => show win4_2.index t (0 : Fin 2) * 64 + 1 * (y 0).val = (y 0).val; omega
  | ⟨1, _⟩ => show win4_2.index t (1 : Fin 2) * 192 + 1 * (y 1).val = (y 1).val; omega

theorem iblk3_eq (V : Entry) (c : Dev nD) (t : Fin cfg4.N) : iblk4 (F := Ideal) V c 3 t = V c main_v80 := by
  obtain ⟨-, -, -, -, -, -, e0, e1, -⟩ := idx_facts4 t
  funext y
  show V c main_v80 (((cfg4.win 3).blk t).view.emb y) = _
  refine congrArg (V c main_v80) ?_
  funext a; apply Fin.ext
  match a with
  | ⟨0, _⟩ => show win4_3.index t (0 : Fin 2) * 64 + 1 * (y 0).val = (y 0).val; omega
  | ⟨1, _⟩ => show win4_3.index t (1 : Fin 2) * 192 + 1 * (y 1).val = (y 1).val; omega

theorem iblk4_eq (V : Entry) (c : Dev nD) (t : Fin cfg4.N) : iblk4 (F := Ideal) V c 4 t = V c main_v81 := by
  obtain ⟨-, -, -, -, -, -, -, -, e0, e1, -⟩ := idx_facts4 t
  funext y
  show V c main_v81 (((cfg4.win 4).blk t).view.emb y) = _
  refine congrArg (V c main_v81) ?_
  funext a; apply Fin.ext
  match a with
  | ⟨0, _⟩ => show win4_4.index t (0 : Fin 2) * 1 + 1 * (y 0).val = (y 0).val; omega
  | ⟨1, _⟩ => show win4_4.index t (1 : Fin 2) * 192 + 1 * (y 1).val = (y 1).val; omega

theorem iblk5_eq (V : Entry) (c : Dev nD) (t : Fin cfg4.N) : iblk4 (F := Ideal) V c 5 t = V c main_v82 := by
  obtain ⟨-, -, -, -, -, -, -, -, -, -, e0, e1, -⟩ := idx_facts4 t
  funext y
  show V c main_v82 (((cfg4.win 5).blk t).view.emb y) = _
  refine congrArg (V c main_v82) ?_
  funext a; apply Fin.ext
  match a with
  | ⟨0, _⟩ => show win4_5.index t (0 : Fin 2) * 1 + 1 * (y 0).val = (y 0).val; omega
  | ⟨1, _⟩ => show win4_5.index t (1 : Fin 2) * 192 + 1 * (y 1).val = (y 1).val; omega

/-- Row `p`, feature `q` of output window 9's block at point `t` sits in the array at node `rowOf t p`. -/
theorem emb9 (t : Fin cfg4.N) (p : Fin 2000) (q : Fin 64) :
    ((cfg4.win 9).blk t).view.emb (ix2 p q) = ix2 (rowOf t p) q := by
  obtain ⟨-, -, -, -, -, -, -, -, -, -, -, -, -, -, -, -, -, -, e0, e1⟩ := idx_facts4 t
  funext a; apply Fin.ext
  match a with
  | ⟨0, _⟩ => show win4_9.index t (0 : Fin 2) * 2000 + 1 * p.val = t.val * 2000 + p.val; omega
  | ⟨1, _⟩ => show win4_9.index t (1 : Fin 2) * 64 + 1 * q.val = q.val; omega

/-- The new-state block the body computes at point `t`, read at row `p` and feature `q`, is the whole-array cell
    at node `rowOf t p`. -/
theorem hiddenBlock_apply (V : Entry) (c : Dev nD) (t : Fin cfg4.N) (p : Fin 2000) (q : Fin 64) :
    k4_pay2 (F := Ideal) (iblk4 V c 0 t) (iblk4 V c 1 t) (iblk4 V c 2 t) (iblk4 V c 3 t) (iblk4 V c 4 t) (iblk4 V c 5 t)
        (iblk4 V c 1 t) (ix2 p q)
      = gruHidden (F := Ideal) (V c main_v77) (V c main_v78) (V c main_v79) (V c main_v80) (V c main_v81) (V c main_v82)
          (ix2 (rowOf t p) q) := by
  refine (cellBlock_apply _ _ _ _ _ _ _ p q).trans ?_
  rw [gruHidden_apply, iblk2_eq, iblk3_eq, iblk4_eq, iblk5_eq]
  simp only [iblk0_apply, iblk1_apply]

/-- What point `t` writes back to the new-state array is block `t` of the whole-array cell. -/
theorem flushed9_eq (V : Entry) (c : Dev nD) (t : Fin cfg4.N) :
    (dat4 (F := Ideal) V c).flushed 9 t
      = ((cfg4.win 9).blk t).view.read (Elt Ideal)
          (gruHidden (F := Ideal) (V c main_v77) (V c main_v78) (V c main_v79) (V c main_v80) (V c main_v81) (V c main_v82)) := by
  show (cfg4.win 9).cut (grid4.coords t) ((dat4 V c).after 9 t) = _
  rw [after4_9]
  unfold out4_9
  rw [View.canon_unit_zero zeroOff]
  simp only [View.ld_unit_zero (S := S2000x64) zeroOff, View.ld_unit_zero (S := S64x192) zeroOff,
    View.ld_unit_zero (S := S1x192) zeroOff]
  funext j
  obtain ⟨p, q, rfl⟩ : ∃ (p : Fin 2000) (q : Fin 64), j = ix2 p q := ⟨j 0, j 1, eq_ix2 j⟩
  show _ = gruHidden (F := Ideal) (V c main_v77) (V c main_v78) (V c main_v79) (V c main_v80) (V c main_v81) (V c main_v82)
      (((cfg4.win 9).blk t).view.emb (ix2 p q))
  rw [emb9]
  exact hiddenBlock_apply V c t p q

/-- An index of the new-state array is in point `t`'s block iff each coordinate is in the block's range on its axis. -/
theorem mem_blk9 (t : Fin cfg4.N) (i : S200000x64.Idx) :
    i ∈ ((cfg4.win 9).blk t).view.set ↔ ∀ a : Fin 2, win4_9.index t a * S2000x64.size a ≤ (i a).val
      ∧ (i a).val < win4_9.index t a * S2000x64.size a + S2000x64.size a := by
  show i ∈ ((View.whole main_v84_1).slice (win4_9.rect t)).set ↔ _
  rw [View.set_slice_whole, Rect.mem_set_unit]
  exact Iff.rfl

/-- Every node row is in the block of the point `row / 2000`. -/
theorem cover9 (i : S200000x64.Idx) :
    ∃ t : Fin cfg4.N, (cfg4.win 9).flush t = true ∧ i ∈ ((cfg4.win 9).blk t).view.set := by
  have hi0 : (i 0).val < 200000 := (i 0).isLt
  have hi1 : (i 1).val < 64 := (i 1).isLt
  have hN : cfg4.N = 100 := N_4
  have ht : (i 0).val / 2000 < cfg4.N := by rw [hN]; omega
  obtain ⟨-, -, -, -, -, -, -, -, -, -, -, -, -, -, -, -, -, -, e0, e1⟩ := idx_facts4 ⟨(i 0).val / 2000, ht⟩
  have e0' : win4_9.index ⟨(i 0).val / 2000, ht⟩ (0 : Fin 2) = (i 0).val / 2000 := e0
  refine ⟨⟨(i 0).val / 2000, ht⟩, flush4_9 _, ?_⟩
  rw [mem_blk9]
  intro a
  match a with
  | ⟨0, _⟩ =>
    show win4_9.index ⟨(i 0).val / 2000, ht⟩ (0 : Fin 2) * 2000 ≤ (i 0).val
      ∧ (i 0).val < win4_9.index ⟨(i 0).val / 2000, ht⟩ (0 : Fin 2) * 2000 + 2000
    omega
  | ⟨1, _⟩ =>
    show win4_9.index ⟨(i 0).val / 2000, ht⟩ (1 : Fin 2) * 64 ≤ (i 1).val
      ∧ (i 1).val < win4_9.index ⟨(i 0).val / 2000, ht⟩ (1 : Fin 2) * 64 + 64
    omega

/-! ## The head -/

theorem iblk6_eq (V : Entry) (c : Dev nD) (t : Fin cfg4.N) : iblk4 (F := Ideal) V c 6 t = V c main_arg11 := by
  obtain ⟨-, -, -, -, -, -, -, -, -, -, -, -, e0, e1, -⟩ := idx_facts4 t
  funext y
  show V c main_arg11 (((cfg4.win 6).blk t).view.emb y) = _
  refine congrArg (V c main_arg11) ?_
  funext a; apply Fin.ext
  match a with
  | ⟨0, _⟩ => show win4_6.index t (0 : Fin 2) * 64 + 1 * (y 0).val = (y 0).val; omega
  | ⟨1, _⟩ => show win4_6.index t (1 : Fin 2) * 5 + 1 * (y 1).val = (y 1).val; omega

theorem iblk7_eq (V : Entry) (c : Dev nD) (t : Fin cfg4.N) : iblk4 (F := Ideal) V c 7 t = V c main_v83 := by
  obtain ⟨-, -, -, -, -, -, -, -, -, -, -, -, -, -, e0, e1, -⟩ := idx_facts4 t
  funext y
  show V c main_v83 (((cfg4.win 7).blk t).view.emb y) = _
  refine congrArg (V c main_v83) ?_
  funext a; apply Fin.ext
  match a with
  | ⟨0, _⟩ => show win4_7.index t (0 : Fin 2) * 1 + 1 * (y 0).val = (y 0).val; omega
  | ⟨1, _⟩ => show win4_7.index t (1 : Fin 2) * 5 + 1 * (y 1).val = (y 1).val; omega

/-- Row `p`, output `o` of output window 8's block at point `t` sits in the array at node `rowOf t p`. -/
theorem emb8 (t : Fin cfg4.N) (p : Fin 2000) (o : Fin 5) :
    ((cfg4.win 8).blk t).view.emb (ix2 p o) = ix2 (rowOf t p) o := by
  obtain ⟨-, -, -, -, -, -, -, -, -, -, -, -, -, -, -, -, e0, e1, -⟩ := idx_facts4 t
  funext a; apply Fin.ext
  match a with
  | ⟨0, _⟩ => show win4_8.index t (0 : Fin 2) * 2000 + 1 * p.val = t.val * 2000 + p.val; omega
  | ⟨1, _⟩ => show win4_8.index t (1 : Fin 2) * 5 + 1 * o.val = o.val; omega

/-- The head block the body computes at point `t` from its own new-state block, read at row `p` and output `o`, is
    the whole-array head of the whole-array cell at node `rowOf t p`. -/
theorem outBlock_apply (V : Entry) (c : Dev nD) (t : Fin cfg4.N) (p : Fin 2000) (o : Fin 5) :
    k4_pay1 (F := Ideal)
        (k4_pay2 (F := Ideal) (iblk4 V c 0 t) (iblk4 V c 1 t) (iblk4 V c 2 t) (iblk4 V c 3 t) (iblk4 V c 4 t)
          (iblk4 V c 5 t) (iblk4 V c 1 t))
        (iblk4 V c 6 t) (iblk4 V c 7 t) (ix2 p o)
      = gruOut (F := Ideal)
          (gruHidden (F := Ideal) (V c main_v77) (V c main_v78) (V c main_v79) (V c main_v80) (V c main_v81) (V c main_v82))
          (V c main_arg11) (V c main_v83) (ix2 (rowOf t p) o) := by
  refine (headBlock_apply _ _ _ p o).trans ?_
  rw [gruOut_apply, iblk6_eq, iblk7_eq]
  refine congrArg (· + V c main_v83 (ix2 (0 : Fin 1) o)) ?_
  refine Finset.sum_congr rfl fun k _ => ?_
  rw [hiddenBlock_apply]

/-- What point `t` writes back to the head's array is block `t` of the whole-array head. -/
theorem flushed8_eq (V : Entry) (c : Dev nD) (t : Fin cfg4.N) :
    (dat4 (F := Ideal) V c).flushed 8 t
      = ((cfg4.win 8).blk t).view.read (Elt Ideal)
          (gruOut (F := Ideal)
            (gruHidden (F := Ideal) (V c main_v77) (V c main_v78) (V c main_v79) (V c main_v80) (V c main_v81) (V c main_v82))
            (V c main_arg11) (V c main_v83)) := by
  show (cfg4.win 8).cut (grid4.coords t) ((dat4 V c).after 8 t) = _
  rw [after4_8]
  unfold out4_8
  rw [View.canon_unit_zero zeroOff]
  simp only [View.ld_unit_zero (S := S2000x64) zeroOff, View.ld_unit_zero (S := S64x192) zeroOff,
    View.ld_unit_zero (S := S1x192) zeroOff, View.ld_unit_zero (S := S64x5) zeroOff, View.ld_unit_zero (S := S1x5) zeroOff]
  funext j
  obtain ⟨p, o, rfl⟩ : ∃ (p : Fin 2000) (o : Fin 5), j = ix2 p o := ⟨j 0, j 1, eq_ix2 j⟩
  show _ = gruOut (F := Ideal)
      (gruHidden (F := Ideal) (V c main_v77) (V c main_v78) (V c main_v79) (V c main_v80) (V c main_v81) (V c main_v82))
      (V c main_arg11) (V c main_v83) (((cfg4.win 8).blk t).view.emb (ix2 p o))
  rw [emb8]
  exact outBlock_apply V c t p o

/-- An index of the head's array is in point `t`'s block iff each coordinate is in the block's range on its axis. -/
theorem mem_blk8 (t : Fin cfg4.N) (i : S200000x5.Idx) :
    i ∈ ((cfg4.win 8).blk t).view.set ↔ ∀ a : Fin 2, win4_8.index t a * S2000x5.size a ≤ (i a).val
      ∧ (i a).val < win4_8.index t a * S2000x5.size a + S2000x5.size a := by
  show i ∈ ((View.whole main_v84_0).slice (win4_8.rect t)).set ↔ _
  rw [View.set_slice_whole, Rect.mem_set_unit]
  exact Iff.rfl

/-- Every node row of the head's array is in the block of the point `row / 2000`. -/
theorem cover8 (i : S200000x5.Idx) :
    ∃ t : Fin cfg4.N, (cfg4.win 8).flush t = true ∧ i ∈ ((cfg4.win 8).blk t).view.set := by
  have hi0 : (i 0).val < 200000 := (i 0).isLt
  have hi1 : (i 1).val < 5 := (i 1).isLt
  have hN : cfg4.N = 100 := N_4
  have ht : (i 0).val / 2000 < cfg4.N := by rw [hN]; omega
  obtain ⟨-, -, -, -, -, -, -, -, -, -, -, -, -, -, -, -, e0, e1, -⟩ := idx_facts4 ⟨(i 0).val / 2000, ht⟩
  have e0' : win4_8.index ⟨(i 0).val / 2000, ht⟩ (0 : Fin 2) = (i 0).val / 2000 := e0
  refine ⟨⟨(i 0).val / 2000, ht⟩, flush4_8 _, ?_⟩
  rw [mem_blk8]
  intro a
  match a with
  | ⟨0, _⟩ =>
    show win4_8.index ⟨(i 0).val / 2000, ht⟩ (0 : Fin 2) * 2000 ≤ (i 0).val
      ∧ (i 0).val < win4_8.index ⟨(i 0).val / 2000, ht⟩ (0 : Fin 2) * 2000 + 2000
    omega
  | ⟨1, _⟩ =>
    show win4_8.index ⟨(i 0).val / 2000, ht⟩ (1 : Fin 2) * 5 ≤ (i 1).val
      ∧ (i 1).val < win4_8.index ⟨(i 0).val / 2000, ht⟩ (1 : Fin 2) * 5 + 5
    omega

theorem region4_hidden (V : Entry) (c : Dev nD) :
    (dat4 (F := Ideal) V c).arrAt 9 cfg4.N
      = gruHidden (F := Ideal) (V c main_v77) (V c main_v78) (V c main_v79) (V c main_v80) (V c main_v81) (V c main_v82) := by
  exact (dat4 (F := Ideal) V c).arrAt_eq_of_cover 9 _ (fun t _ => flushed9_eq V c t) cover9

theorem region4_out (V : Entry) (c : Dev nD) :
    (dat4 (F := Ideal) V c).arrAt 8 cfg4.N
      = gruOut (F := Ideal)
          (gruHidden (F := Ideal) (V c main_v77) (V c main_v78) (V c main_v79) (V c main_v80) (V c main_v81) (V c main_v82))
          (V c main_arg11) (V c main_v83) := by
  exact (dat4 (F := Ideal) V c).arrAt_eq_of_cover 8 _ (fun t _ => flushed8_eq V c t) cover8

end Cert.Bridge

end
-- ==== Proof.Stages.lean ====
/-
  The idealized kernel's buffers, boundary by boundary. `W0` … `W10` are the contents of the TensorCore's buffers
  at the ten boundaries between the program's host stretches and its five pipelined regions. Walking from the
  launch memory forward, each buffer a later stage reads is shown to hold the reference's own stage of the
  launch arguments: a host stretch applies the same operations the reference applies; a region's result array is
  the dense stage of its input arrays (one theorem per region); a buffer no operation and no region in between
  writes keeps what it held. At the last boundary the two results are the reference's two results.
-/
import proofs.«120230_j24111946400619_1_alg».proof.Proof.Gen.KernelIdeal.Frame
import proofs.«120230_j24111946400619_1_alg».proof.Proof.Gen.ReferenceIdeal.Read
import proofs.«120230_j24111946400619_1_alg».proof.Proof.RefStages
import proofs.«120230_j24111946400619_1_alg».proof.Proof.Host0
import proofs.«120230_j24111946400619_1_alg».proof.Proof.Host1
import proofs.«120230_j24111946400619_1_alg».proof.Proof.Host3
import proofs.«120230_j24111946400619_1_alg».proof.Proof.Host45
import proofs.«120230_j24111946400619_1_alg».proof.Proof.Region0
import proofs.«120230_j24111946400619_1_alg».proof.Proof.Region1
import proofs.«120230_j24111946400619_1_alg».proof.Proof.Region2
import proofs.«120230_j24111946400619_1_alg».proof.Proof.Region3
import proofs.«120230_j24111946400619_1_alg».proof.Proof.Region4

set_option maxRecDepth 16384

noncomputable section

namespace Cert.Bridge.Stages

open Cert.KernelIdeal Cert.KernelIdeal.Gen
open Idealize.ShloMosaic Idealize.ShloMosaic.TcCoe Idealize.SL.Sem Idealize.ShloMosaic.StableHlo
open Cert.Bridge

variable (m : (ℓ : Loc nD τ sig) → Buf (Elt Ideal) ℓ) (ρ : Dev nD → PrngReg) (c : Dev nD)

/-! ## After the first host stretch -/

theorem W1_v11 : W1 m ρ c (Proc.devRef .tc main_v11) = Cert.ReferenceIdeal.Read.val_main_v10 (F := Ideal) (m ((c : Thread nD τ).loc main_arg0)) := Host.h0_v11 (W0 m ρ c)
theorem W1_v9 : W1 m ρ c (Proc.devRef .tc main_v9) = Cert.ReferenceIdeal.Read.val_main_v9 (F := Ideal) (m ((c : Thread nD τ).loc main_arg1)) (m ((c : Thread nD τ).loc main_arg13)) := Host.h0_v9 (W0 m ρ c)
theorem W1_v10 : W1 m ρ c (Proc.devRef .tc main_v10) = Cert.ReferenceIdeal.Read.val_main_v41 (F := Ideal) (m ((c : Thread nD τ).loc main_arg1)) (m ((c : Thread nD τ).loc main_arg13)) := Host.h0_v10 (W0 m ρ c)
theorem W1_v1 : W1 m ρ c (Proc.devRef .tc main_v1) = Cert.ReferenceIdeal.Read.val_main_v1 (F := Ideal) (m ((c : Thread nD τ).loc main_arg13)) := Host.h0_v1 (W0 m ρ c)
theorem W1_v3 : W1 m ρ c (Proc.devRef .tc main_v3) = Cert.ReferenceIdeal.Read.val_main_v3 (F := Ideal) (m ((c : Thread nD τ).loc main_arg13)) := Host.h0_v3 (W0 m ρ c)
theorem W1_arg1 : W1 m ρ c (Proc.devRef .tc main_arg1) = (m ((c : Thread nD τ).loc main_arg1)) := Host.h0_arg1 (W0 m ρ c)
theorem W1_arg2 : W1 m ρ c (Proc.devRef .tc main_arg2) = (m ((c : Thread nD τ).loc main_arg2)) := Host.h0_arg2 (W0 m ρ c)
theorem W1_arg3 : W1 m ρ c (Proc.devRef .tc main_arg3) = (m ((c : Thread nD τ).loc main_arg3)) := Host.h0_arg3 (W0 m ρ c)
theorem W1_arg4 : W1 m ρ c (Proc.devRef .tc main_arg4) = (m ((c : Thread nD τ).loc main_arg4)) := Host.h0_arg4 (W0 m ρ c)
theorem W1_arg5 : W1 m ρ c (Proc.devRef .tc main_arg5) = (m ((c : Thread nD τ).loc main_arg5)) := Host.h0_arg5 (W0 m ρ c)
theorem W1_arg6 : W1 m ρ c (Proc.devRef .tc main_arg6) = (m ((c : Thread nD τ).loc main_arg6)) := Host.h0_arg6 (W0 m ρ c)
theorem W1_arg7 : W1 m ρ c (Proc.devRef .tc main_arg7) = (m ((c : Thread nD τ).loc main_arg7)) := Host.h0_arg7 (W0 m ρ c)
theorem W1_arg8 : W1 m ρ c (Proc.devRef .tc main_arg8) = (m ((c : Thread nD τ).loc main_arg8)) := Host.h0_arg8 (W0 m ρ c)
theorem W1_arg9 : W1 m ρ c (Proc.devRef .tc main_arg9) = (m ((c : Thread nD τ).loc main_arg9)) := Host.h0_arg9 (W0 m ρ c)
theorem W1_arg10 : W1 m ρ c (Proc.devRef .tc main_arg10) = (m ((c : Thread nD τ).loc main_arg10)) := Host.h0_arg10 (W0 m ρ c)
theorem W1_arg11 : W1 m ρ c (Proc.devRef .tc main_arg11) = (m ((c : Thread nD τ).loc main_arg11)) := Host.h0_arg11 (W0 m ρ c)
theorem W1_arg12 : W1 m ρ c (Proc.devRef .tc main_arg12) = (m ((c : Thread nD τ).loc main_arg12)) := Host.h0_arg12 (W0 m ρ c)

/-! ## After the first projection region -/

theorem W2_v12 : W2 m ρ c (Proc.devRef .tc main_v12) = Cert.ReferenceIdeal.Read.val_main_v11 (F := Ideal) (m ((c : Thread nD τ).loc main_arg0)) (m ((c : Thread nD τ).loc main_arg3)) := by
  refine (W2_arr m ρ c 2).trans ?_
  rw [region0_value (V1 m ρ) c]
  show proj1 (F := Ideal) (W1 m ρ c (Proc.devRef .tc main_v11)) (W1 m ρ c (Proc.devRef .tc main_arg3)) = _
  rw [W1_v11, W1_arg3]
  rfl
theorem W2_v9 : W2 m ρ c (Proc.devRef .tc main_v9) = Cert.ReferenceIdeal.Read.val_main_v9 (F := Ideal) (m ((c : Thread nD τ).loc main_arg1)) (m ((c : Thread nD τ).loc main_arg13)) := (W2_of_ne m ρ c main_v9 (by decide)).trans (W1_v9 m ρ c)
theorem W2_v10 : W2 m ρ c (Proc.devRef .tc main_v10) = Cert.ReferenceIdeal.Read.val_main_v41 (F := Ideal) (m ((c : Thread nD τ).loc main_arg1)) (m ((c : Thread nD τ).loc main_arg13)) := (W2_of_ne m ρ c main_v10 (by decide)).trans (W1_v10 m ρ c)
theorem W2_v1 : W2 m ρ c (Proc.devRef .tc main_v1) = Cert.ReferenceIdeal.Read.val_main_v1 (F := Ideal) (m ((c : Thread nD τ).loc main_arg13)) := (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg13)) := (W2_of_ne m ρ c main_v3 (by decide)).trans (W1_v3 m ρ c)
theorem W2_arg1 : W2 m ρ c (Proc.devRef .tc main_arg1) = (m ((c : Thread nD τ).loc main_arg1)) := (W2_of_ne m ρ c main_arg1 (by decide)).trans (W1_arg1 m ρ c)
theorem W2_arg2 : W2 m ρ c (Proc.devRef .tc main_arg2) = (m ((c : Thread nD τ).loc main_arg2)) := (W2_of_ne m ρ c main_arg2 (by decide)).trans (W1_arg2 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)
theorem W2_arg9 : W2 m ρ c (Proc.devRef .tc main_arg9) = (m ((c : Thread nD τ).loc main_arg9)) := (W2_of_ne m ρ c main_arg9 (by decide)).trans (W1_arg9 m ρ c)
theorem W2_arg10 : W2 m ρ c (Proc.devRef .tc main_arg10) = (m ((c : Thread nD τ).loc main_arg10)) := (W2_of_ne m ρ c main_arg10 (by decide)).trans (W1_arg10 m ρ c)
theorem W2_arg11 : W2 m ρ c (Proc.devRef .tc main_arg11) = (m ((c : Thread nD τ).loc main_arg11)) := (W2_of_ne m ρ c main_arg11 (by decide)).trans (W1_arg11 m ρ c)
theorem W2_arg12 : W2 m ρ c (Proc.devRef .tc main_arg12) = (m ((c : Thread nD τ).loc main_arg12)) := (W2_of_ne m ρ c main_arg12 (by decide)).trans (W1_arg12 m ρ c)

/-! ## After the second host stretch -/

theorem W3_v12 : W3 m ρ c (Proc.devRef .tc main_v12) = Cert.ReferenceIdeal.Read.val_main_v11 (F := Ideal) (m ((c : Thread nD τ).loc main_arg0)) (m ((c : Thread nD τ).loc main_arg3)) := (Host.h1_v12 (W2 m ρ c)).trans (W2_v12 m ρ c)
theorem W3_v41 : W3 m ρ c (Proc.devRef .tc main_v41) = Cert.ReferenceIdeal.Read.val_main_v40 (F := Ideal) (m ((c : Thread nD τ).loc main_arg0)) (m ((c : Thread nD τ).loc main_arg1)) (m ((c : Thread nD τ).loc main_arg3)) (m ((c : Thread nD τ).loc main_arg13)) := by
  refine (Host.h1_v41 (W2 m ρ c)).trans ?_
  rw [W2_v12, W2_v9, W2_v1, W2_v3, W2_arg1]
  rfl
theorem W3_v42 : W3 m ρ c (Proc.devRef .tc main_v42) = Cert.ReferenceIdeal.Read.val_main_v46 (F := Ideal) (m ((c : Thread nD τ).loc main_arg4)) := by
  refine (Host.h1_v42 (W2 m ρ c)).trans ?_
  rw [W2_arg4]
theorem W3_v43 : W3 m ρ c (Proc.devRef .tc main_v43) = Cert.ReferenceIdeal.Read.val_main_v42 (F := Ideal) (m ((c : Thread nD τ).loc main_arg1)) (m ((c : Thread nD τ).loc main_arg13)) := by
  refine (Host.h1_v43 (W2 m ρ c)).trans ?_
  rw [W2_v10]
  rfl
theorem W3_v9 : W3 m ρ c (Proc.devRef .tc main_v9) = Cert.ReferenceIdeal.Read.val_main_v9 (F := Ideal) (m ((c : Thread nD τ).loc main_arg1)) (m ((c : Thread nD τ).loc main_arg13)) := (Host.h1_v9 (W2 m ρ c)).trans (W2_v9 m ρ c)
theorem W3_v10 : W3 m ρ c (Proc.devRef .tc main_v10) = Cert.ReferenceIdeal.Read.val_main_v41 (F := Ideal) (m ((c : Thread nD τ).loc main_arg1)) (m ((c : Thread nD τ).loc main_arg13)) := (Host.h1_v10 (W2 m ρ c)).trans (W2_v10 m ρ c)
theorem W3_v1 : W3 m ρ c (Proc.devRef .tc main_v1) = Cert.ReferenceIdeal.Read.val_main_v1 (F := Ideal) (m ((c : Thread nD τ).loc main_arg13)) := (Host.h1_v1 (W2 m ρ c)).trans (W2_v1 m ρ c)
theorem W3_v3 : W3 m ρ c (Proc.devRef .tc main_v3) = Cert.ReferenceIdeal.Read.val_main_v3 (F := Ideal) (m ((c : Thread nD τ).loc main_arg13)) := (Host.h1_v3 (W2 m ρ c)).trans (W2_v3 m ρ c)
theorem W3_arg1 : W3 m ρ c (Proc.devRef .tc main_arg1) = (m ((c : Thread nD τ).loc main_arg1)) := (Host.h1_arg1 (W2 m ρ c)).trans (W2_arg1 m ρ c)
theorem W3_arg2 : W3 m ρ c (Proc.devRef .tc main_arg2) = (m ((c : Thread nD τ).loc main_arg2)) := (Host.h1_arg2 (W2 m ρ c)).trans (W2_arg2 m ρ c)
theorem W3_arg5 : W3 m ρ c (Proc.devRef .tc main_arg5) = (m ((c : Thread nD τ).loc main_arg5)) := (Host.h1_arg5 (W2 m ρ c)).trans (W2_arg5 m ρ c)
theorem W3_arg6 : W3 m ρ c (Proc.devRef .tc main_arg6) = (m ((c : Thread nD τ).loc main_arg6)) := (Host.h1_arg6 (W2 m ρ c)).trans (W2_arg6 m ρ c)
theorem W3_arg7 : W3 m ρ c (Proc.devRef .tc main_arg7) = (m ((c : Thread nD τ).loc main_arg7)) := (Host.h1_arg7 (W2 m ρ c)).trans (W2_arg7 m ρ c)
theorem W3_arg8 : W3 m ρ c (Proc.devRef .tc main_arg8) = (m ((c : Thread nD τ).loc main_arg8)) := (Host.h1_arg8 (W2 m ρ c)).trans (W2_arg8 m ρ c)
theorem W3_arg9 : W3 m ρ c (Proc.devRef .tc main_arg9) = (m ((c : Thread nD τ).loc main_arg9)) := (Host.h1_arg9 (W2 m ρ c)).trans (W2_arg9 m ρ c)
theorem W3_arg10 : W3 m ρ c (Proc.devRef .tc main_arg10) = (m ((c : Thread nD τ).loc main_arg10)) := (Host.h1_arg10 (W2 m ρ c)).trans (W2_arg10 m ρ c)
theorem W3_arg11 : W3 m ρ c (Proc.devRef .tc main_arg11) = (m ((c : Thread nD τ).loc main_arg11)) := (Host.h1_arg11 (W2 m ρ c)).trans (W2_arg11 m ρ c)
theorem W3_arg12 : W3 m ρ c (Proc.devRef .tc main_arg12) = (m ((c : Thread nD τ).loc main_arg12)) := (Host.h1_arg12 (W2 m ρ c)).trans (W2_arg12 m ρ c)

/-! ## After the first combine region -/

theorem W4_v44 : W4 m ρ c (Proc.devRef .tc main_v44) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg13)) := by
  refine (W4_arr m ρ c 4).trans ?_
  rw [region1_value (V3 m ρ) c]
  show combine (F := Ideal) (W3 m ρ c (Proc.devRef .tc main_v12)) (W3 m ρ c (Proc.devRef .tc main_v41)) (W3 m ρ c (Proc.devRef .tc main_v43)) (W3 m ρ c (Proc.devRef .tc main_v42)) = _
  rw [W3_v12, W3_v41, W3_v43, W3_v42]
  rfl
theorem W4_v9 : W4 m ρ c (Proc.devRef .tc main_v9) = Cert.ReferenceIdeal.Read.val_main_v9 (F := Ideal) (m ((c : Thread nD τ).loc main_arg1)) (m ((c : Thread nD τ).loc main_arg13)) := (W4_of_ne m ρ c main_v9 (by decide)).trans (W3_v9 m ρ c)
theorem W4_v10 : W4 m ρ c (Proc.devRef .tc main_v10) = Cert.ReferenceIdeal.Read.val_main_v41 (F := Ideal) (m ((c : Thread nD τ).loc main_arg1)) (m ((c : Thread nD τ).loc main_arg13)) := (W4_of_ne m ρ c main_v10 (by decide)).trans (W3_v10 m ρ c)
theorem W4_v1 : W4 m ρ c (Proc.devRef .tc main_v1) = Cert.ReferenceIdeal.Read.val_main_v1 (F := Ideal) (m ((c : Thread nD τ).loc main_arg13)) := (W4_of_ne m ρ c main_v1 (by decide)).trans (W3_v1 m ρ c)
theorem W4_v3 : W4 m ρ c (Proc.devRef .tc main_v3) = Cert.ReferenceIdeal.Read.val_main_v3 (F := Ideal) (m ((c : Thread nD τ).loc main_arg13)) := (W4_of_ne m ρ c main_v3 (by decide)).trans (W3_v3 m ρ c)
theorem W4_arg1 : W4 m ρ c (Proc.devRef .tc main_arg1) = (m ((c : Thread nD τ).loc main_arg1)) := (W4_of_ne m ρ c main_arg1 (by decide)).trans (W3_arg1 m ρ c)
theorem W4_arg2 : W4 m ρ c (Proc.devRef .tc main_arg2) = (m ((c : Thread nD τ).loc main_arg2)) := (W4_of_ne m ρ c main_arg2 (by decide)).trans (W3_arg2 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)
theorem W4_arg9 : W4 m ρ c (Proc.devRef .tc main_arg9) = (m ((c : Thread nD τ).loc main_arg9)) := (W4_of_ne m ρ c main_arg9 (by decide)).trans (W3_arg9 m ρ c)
theorem W4_arg10 : W4 m ρ c (Proc.devRef .tc main_arg10) = (m ((c : Thread nD τ).loc main_arg10)) := (W4_of_ne m ρ c main_arg10 (by decide)).trans (W3_arg10 m ρ c)
theorem W4_arg11 : W4 m ρ c (Proc.devRef .tc main_arg11) = (m ((c : Thread nD τ).loc main_arg11)) := (W4_of_ne m ρ c main_arg11 (by decide)).trans (W3_arg11 m ρ c)
theorem W4_arg12 : W4 m ρ c (Proc.devRef .tc main_arg12) = (m ((c : Thread nD τ).loc main_arg12)) := (W4_of_ne m ρ c main_arg12 (by decide)).trans (W3_arg12 m ρ c)

/-! ## After the second projection region -/

theorem W5_v45 : W5 m ρ c (Proc.devRef .tc main_v45) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg13)) := by
  refine (W5_arr m ρ c 2).trans ?_
  rw [region2_value (V4 m ρ) c]
  show proj2 (F := Ideal) (W4 m ρ c (Proc.devRef .tc main_v44)) (W4 m ρ c (Proc.devRef .tc main_arg5)) = _
  rw [W4_v44, W4_arg5]
  rfl
theorem W5_v9 : W5 m ρ c (Proc.devRef .tc main_v9) = Cert.ReferenceIdeal.Read.val_main_v9 (F := Ideal) (m ((c : Thread nD τ).loc main_arg1)) (m ((c : Thread nD τ).loc main_arg13)) := (W5_of_ne m ρ c main_v9 (by decide)).trans (W4_v9 m ρ c)
theorem W5_v10 : W5 m ρ c (Proc.devRef .tc main_v10) = Cert.ReferenceIdeal.Read.val_main_v41 (F := Ideal) (m ((c : Thread nD τ).loc main_arg1)) (m ((c : Thread nD τ).loc main_arg13)) := (W5_of_ne m ρ c main_v10 (by decide)).trans (W4_v10 m ρ c)
theorem W5_v1 : W5 m ρ c (Proc.devRef .tc main_v1) = Cert.ReferenceIdeal.Read.val_main_v1 (F := Ideal) (m ((c : Thread nD τ).loc main_arg13)) := (W5_of_ne m ρ c main_v1 (by decide)).trans (W4_v1 m ρ c)
theorem W5_v3 : W5 m ρ c (Proc.devRef .tc main_v3) = Cert.ReferenceIdeal.Read.val_main_v3 (F := Ideal) (m ((c : Thread nD τ).loc main_arg13)) := (W5_of_ne m ρ c main_v3 (by decide)).trans (W4_v3 m ρ c)
theorem W5_arg1 : W5 m ρ c (Proc.devRef .tc main_arg1) = (m ((c : Thread nD τ).loc main_arg1)) := (W5_of_ne m ρ c main_arg1 (by decide)).trans (W4_arg1 m ρ c)
theorem W5_arg2 : W5 m ρ c (Proc.devRef .tc main_arg2) = (m ((c : Thread nD τ).loc main_arg2)) := (W5_of_ne m ρ c main_arg2 (by decide)).trans (W4_arg2 m ρ c)
theorem W5_arg6 : W5 m ρ c (Proc.devRef .tc main_arg6) = (m ((c : Thread nD τ).loc main_arg6)) := (W5_of_ne m ρ c main_arg6 (by decide)).trans (W4_arg6 m ρ c)
theorem W5_arg7 : W5 m ρ c (Proc.devRef .tc main_arg7) = (m ((c : Thread nD τ).loc main_arg7)) := (W5_of_ne m ρ c main_arg7 (by decide)).trans (W4_arg7 m ρ c)
theorem W5_arg8 : W5 m ρ c (Proc.devRef .tc main_arg8) = (m ((c : Thread nD τ).loc main_arg8)) := (W5_of_ne m ρ c main_arg8 (by decide)).trans (W4_arg8 m ρ c)
theorem W5_arg9 : W5 m ρ c (Proc.devRef .tc main_arg9) = (m ((c : Thread nD τ).loc main_arg9)) := (W5_of_ne m ρ c main_arg9 (by decide)).trans (W4_arg9 m ρ c)
theorem W5_arg10 : W5 m ρ c (Proc.devRef .tc main_arg10) = (m ((c : Thread nD τ).loc main_arg10)) := (W5_of_ne m ρ c main_arg10 (by decide)).trans (W4_arg10 m ρ c)
theorem W5_arg11 : W5 m ρ c (Proc.devRef .tc main_arg11) = (m ((c : Thread nD τ).loc main_arg11)) := (W5_of_ne m ρ c main_arg11 (by decide)).trans (W4_arg11 m ρ c)
theorem W5_arg12 : W5 m ρ c (Proc.devRef .tc main_arg12) = (m ((c : Thread nD τ).loc main_arg12)) := (W5_of_ne m ρ c main_arg12 (by decide)).trans (W4_arg12 m ρ c)

/-! ## After the third host stretch -/

theorem W6_v45 : W6 m ρ c (Proc.devRef .tc main_v45) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg13)) := (Host.h3_v45 (W5 m ρ c)).trans (W5_v45 m ρ c)
theorem W6_v74 : W6 m ρ c (Proc.devRef .tc main_v74) = Cert.ReferenceIdeal.Read.val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg13)) := by
  refine (Host.h3_v74 (W5 m ρ c)).trans ?_
  rw [W5_v45, W5_v9, W5_v1, W5_v3, W5_arg1]
  rfl
theorem W6_v75 : W6 m ρ c (Proc.devRef .tc main_v75) = Cert.ReferenceIdeal.Read.val_main_v85 (F := Ideal) (m ((c : Thread nD τ).loc main_arg6)) := by
  refine (Host.h3_v75 (W5 m ρ c)).trans ?_
  rw [W5_arg6]
theorem W6_v76 : W6 m ρ c (Proc.devRef .tc main_v76) = Cert.ReferenceIdeal.Read.val_main_v81 (F := Ideal) (m ((c : Thread nD τ).loc main_arg1)) (m ((c : Thread nD τ).loc main_arg13)) := by
  refine (Host.h3_v76 (W5 m ρ c)).trans ?_
  rw [W5_v10]
  rfl
theorem W6_arg2 : W6 m ρ c (Proc.devRef .tc main_arg2) = (m ((c : Thread nD τ).loc main_arg2)) := (Host.h3_arg2 (W5 m ρ c)).trans (W5_arg2 m ρ c)
theorem W6_arg7 : W6 m ρ c (Proc.devRef .tc main_arg7) = (m ((c : Thread nD τ).loc main_arg7)) := (Host.h3_arg7 (W5 m ρ c)).trans (W5_arg7 m ρ c)
theorem W6_arg8 : W6 m ρ c (Proc.devRef .tc main_arg8) = (m ((c : Thread nD τ).loc main_arg8)) := (Host.h3_arg8 (W5 m ρ c)).trans (W5_arg8 m ρ c)
theorem W6_arg9 : W6 m ρ c (Proc.devRef .tc main_arg9) = (m ((c : Thread nD τ).loc main_arg9)) := (Host.h3_arg9 (W5 m ρ c)).trans (W5_arg9 m ρ c)
theorem W6_arg10 : W6 m ρ c (Proc.devRef .tc main_arg10) = (m ((c : Thread nD τ).loc main_arg10)) := (Host.h3_arg10 (W5 m ρ c)).trans (W5_arg10 m ρ c)
theorem W6_arg11 : W6 m ρ c (Proc.devRef .tc main_arg11) = (m ((c : Thread nD τ).loc main_arg11)) := (Host.h3_arg11 (W5 m ρ c)).trans (W5_arg11 m ρ c)
theorem W6_arg12 : W6 m ρ c (Proc.devRef .tc main_arg12) = (m ((c : Thread nD τ).loc main_arg12)) := (Host.h3_arg12 (W5 m ρ c)).trans (W5_arg12 m ρ c)

/-! ## After the second combine region -/

theorem W7_v77 : W7 m ρ c (Proc.devRef .tc main_v77) = Cert.ReferenceIdeal.Read.val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg13)) := by
  refine (W7_arr m ρ c 4).trans ?_
  rw [region3_value (V6 m ρ) c]
  show combine (F := Ideal) (W6 m ρ c (Proc.devRef .tc main_v45)) (W6 m ρ c (Proc.devRef .tc main_v74)) (W6 m ρ c (Proc.devRef .tc main_v76)) (W6 m ρ c (Proc.devRef .tc main_v75)) = _
  rw [W6_v45, W6_v74, W6_v76, W6_v75]
  rfl
theorem W7_arg2 : W7 m ρ c (Proc.devRef .tc main_arg2) = (m ((c : Thread nD τ).loc main_arg2)) := (W7_of_ne m ρ c main_arg2 (by decide)).trans (W6_arg2 m ρ c)
theorem W7_arg7 : W7 m ρ c (Proc.devRef .tc main_arg7) = (m ((c : Thread nD τ).loc main_arg7)) := (W7_of_ne m ρ c main_arg7 (by decide)).trans (W6_arg7 m ρ c)
theorem W7_arg8 : W7 m ρ c (Proc.devRef .tc main_arg8) = (m ((c : Thread nD τ).loc main_arg8)) := (W7_of_ne m ρ c main_arg8 (by decide)).trans (W6_arg8 m ρ c)
theorem W7_arg9 : W7 m ρ c (Proc.devRef .tc main_arg9) = (m ((c : Thread nD τ).loc main_arg9)) := (W7_of_ne m ρ c main_arg9 (by decide)).trans (W6_arg9 m ρ c)
theorem W7_arg10 : W7 m ρ c (Proc.devRef .tc main_arg10) = (m ((c : Thread nD τ).loc main_arg10)) := (W7_of_ne m ρ c main_arg10 (by decide)).trans (W6_arg10 m ρ c)
theorem W7_arg11 : W7 m ρ c (Proc.devRef .tc main_arg11) = (m ((c : Thread nD τ).loc main_arg11)) := (W7_of_ne m ρ c main_arg11 (by decide)).trans (W6_arg11 m ρ c)
theorem W7_arg12 : W7 m ρ c (Proc.devRef .tc main_arg12) = (m ((c : Thread nD τ).loc main_arg12)) := (W7_of_ne m ρ c main_arg12 (by decide)).trans (W6_arg12 m ρ c)

/-! ## After the fourth host stretch -/

theorem W8_v77 : W8 m ρ c (Proc.devRef .tc main_v77) = Cert.ReferenceIdeal.Read.val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg13)) := (Host.h4_v77 (W7 m ρ c)).trans (W7_v77 m ρ c)
theorem W8_arg11 : W8 m ρ c (Proc.devRef .tc main_arg11) = (m ((c : Thread nD τ).loc main_arg11)) := (Host.h4_arg11 (W7 m ρ c)).trans (W7_arg11 m ρ c)
theorem W8_v78 : W8 m ρ c (Proc.devRef .tc main_v78) = Cert.ReferenceIdeal.Read.val_main_v89 (F := Ideal) (m ((c : Thread nD τ).loc main_arg2)) := by
  refine (Host.h4_v78 (W7 m ρ c)).trans ?_
  rw [W7_arg2]
theorem W8_v79 : W8 m ρ c (Proc.devRef .tc main_v79) = Cert.ReferenceIdeal.Read.val_main_v90 (F := Ideal) (m ((c : Thread nD τ).loc main_arg7)) := by
  refine (Host.h4_v79 (W7 m ρ c)).trans ?_
  rw [W7_arg7]
theorem W8_v80 : W8 m ρ c (Proc.devRef .tc main_v80) = Cert.ReferenceIdeal.Read.val_main_v95 (F := Ideal) (m ((c : Thread nD τ).loc main_arg8)) := by
  refine (Host.h4_v80 (W7 m ρ c)).trans ?_
  rw [W7_arg8]
theorem W8_v81 : W8 m ρ c (Proc.devRef .tc main_v81) = Cert.ReferenceIdeal.Read.val_main_v92 (F := Ideal) (m ((c : Thread nD τ).loc main_arg9)) := by
  refine (Host.h4_v81 (W7 m ρ c)).trans ?_
  rw [W7_arg9]
theorem W8_v82 : W8 m ρ c (Proc.devRef .tc main_v82) = Cert.ReferenceIdeal.Read.val_main_v97 (F := Ideal) (m ((c : Thread nD τ).loc main_arg10)) := by
  refine (Host.h4_v82 (W7 m ρ c)).trans ?_
  rw [W7_arg10]
theorem W8_v83 : W8 m ρ c (Proc.devRef .tc main_v83) = Cert.ReferenceIdeal.Read.val_main_v129 (F := Ideal) (m ((c : Thread nD τ).loc main_arg12)) := by
  refine (Host.h4_v83 (W7 m ρ c)).trans ?_
  rw [W7_arg12]

/-! ## After the recurrent cell's region -/

theorem W9_v84_1 : W9 m ρ c (Proc.devRef .tc main_v84_1) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) := by
  refine (W9_arr m ρ c 9).trans ?_
  rw [region4_hidden (V8 m ρ) c]
  show gruHidden (F := Ideal) (W8 m ρ c (Proc.devRef .tc main_v77)) (W8 m ρ c (Proc.devRef .tc main_v78)) (W8 m ρ c (Proc.devRef .tc main_v79)) (W8 m ρ c (Proc.devRef .tc main_v80)) (W8 m ρ c (Proc.devRef .tc main_v81)) (W8 m ρ c (Proc.devRef .tc main_v82)) = _
  rw [W8_v77, W8_v78, W8_v79, W8_v80, W8_v81, W8_v82]
  rfl
theorem W9_v84_0 : W9 m ρ c (Proc.devRef .tc main_v84_0) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W9_arr m ρ c 8).trans ?_
  rw [region4_out (V8 m ρ) c]
  show gruOut (F := Ideal) (gruHidden (F := Ideal) (W8 m ρ c (Proc.devRef .tc main_v77)) (W8 m ρ c (Proc.devRef .tc main_v78)) (W8 m ρ c (Proc.devRef .tc main_v79)) (W8 m ρ c (Proc.devRef .tc main_v80)) (W8 m ρ c (Proc.devRef .tc main_v81)) (W8 m ρ c (Proc.devRef .tc main_v82))) (W8 m ρ c (Proc.devRef .tc main_arg11)) (W8 m ρ c (Proc.devRef .tc main_v83)) = _
  rw [W8_v77, W8_v78, W8_v79, W8_v80, W8_v81, W8_v82, W8_arg11, W8_v83]
  rfl

/-! ## At the return -/

/-- The first result is the reference's first result of the launch arguments. -/
theorem out0 : W10 m ρ c (Proc.devRef .tc main_v85) = Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (Host.h5_v85 (W9 m ρ c)).trans ?_
  rw [W9_v84_0]
  rfl
/-- The second result is the reference's second result of the launch arguments. -/
theorem out1 : W10 m ρ c (Proc.devRef .tc main_v86) = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) := by
  refine (Host.h5_v86 (W9 m ρ c)).trans ?_
  rw [W9_v84_1]
  rfl

end Cert.Bridge.Stages

end
-- ==== Proof.lean ====
/-
  The certificate. The kernel is five pipelined regions (two dense projections, two combine steps
  max (agg + d * xw + b) 0, and a gated recurrent cell with its linear head) among host stretches that compute the
  weighted degrees and aggregate messages along the edges; the reference computes the same network with host
  operations only.

  * The three frames: the kernel's two are the generated frame certificates; the reference's is its generated run
    with the results dropped.
  * The idealization rewrote no operation, so there is nothing to preserve.
  * At exact arithmetic both programs end with the same two results. The kernel's run ends with every buffer at the
    last boundary's contents (`Cert.KernelIdeal.Named.run`); walking the boundaries from the launch memory, every
    buffer holds the reference's own stage of the launch arguments (`Cert.Bridge.Stages`): the host stretches are
    the reference's operations, and each region's result array is the corresponding dense stage of its input arrays
    — a matrix product accumulated from zero is the host's product, a change of float format is the identity, and
    the kernel's logistic is 1 / (1 + exp (-x)) as the reference spells it. No law of arithmetic that could fail at
    an infinity is used, so the precondition is never opened.
-/
import proofs.«120230_j24111946400619_1_alg».proof.Defs
import proofs.«120230_j24111946400619_1_alg».proof.Proof.Gen.Kernel
import proofs.«120230_j24111946400619_1_alg».proof.Proof.Gen.Kernel.Frame
import proofs.«120230_j24111946400619_1_alg».proof.Proof.Gen.KernelIdeal
import proofs.«120230_j24111946400619_1_alg».proof.Proof.Gen.KernelIdeal.Frame
import proofs.«120230_j24111946400619_1_alg».proof.Proof.Gen.ReferenceIdeal
import proofs.«120230_j24111946400619_1_alg».proof.Proof.Gen.ReferenceIdeal.Run
import proofs.«120230_j24111946400619_1_alg».proof.Proof.Gen.ReferenceIdeal.Read
import proofs.«120230_j24111946400619_1_alg».proof.Proof.Gen.Pre_finite_inputs
import proofs.«120230_j24111946400619_1_alg».proof.Proof.KernelRun
import proofs.«120230_j24111946400619_1_alg».proof.Proof.Stages
import Idealize.ShloMosaic.Adequacy
import Idealize.ShloMosaic.Init

set_option maxRecDepth 16384

noncomputable section

namespace Cert.Proof

open Idealize.ShloMosaic Idealize.SL.Sem

/-- The printed kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs, from memories agreeing on the arguments, end with the reference's two stages of the kernel's
    launch arguments as results. -/
theorem algebraic : Cert.algebraic_KernelIdeal_ReferenceIdeal := by
  intro m ρ m' ρ' _ hagree
  refine ⟨fun c => Cert.ReferenceIdeal.Read.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v133 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Bridge.Stages.out0 m ρ c), (h c).2.1.trans (Cert.Bridge.Stages.out1 m ρ c), (h c).2.2⟩)
      (Cert.KernelIdeal.Named.run (F := Ideal) m ρ)
  · refine (θ_run Cert.ReferenceIdeal.defs _ _).mono (fun r h c => ?_)
      (Cert.ReferenceIdeal.Value.run (F := Ideal) m' ρ')
    obtain ⟨e0, e1, e2, e3, e4, e5, e6, e7, e8, e9, e10, e11, e12, e13⟩ := hagree c
    refine ⟨(h c).1.trans ?_, (h c).2.1.trans ?_, (h c).2.2⟩
    · rw [Cert.ReferenceIdeal.Read.val_main_v132_eq, e0, e1, e2, e3, e4, e5, e6, e7, e8, e9, e10, e11, e12, e13]
    · rw [Cert.ReferenceIdeal.Read.val_main_v133_eq, e0, e1, e2, e3, e4, e5, e6, e7, e8, e9, e10, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
